-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_arg7 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x40 .f32) (main_arg6 : FVec F S40 .f32) (main_arg7 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S256x128 : Shape := ⟨2, ![256, 128]⟩
abbrev S1x128 : Shape := ⟨2, ![1, 128]⟩
abbrev S5000x128 : Shape := ⟨2, ![5000, 128]⟩
abbrev S5000x1 : Shape := ⟨2, ![5000, 1]⟩
abbrev S5000x256 : Shape := ⟨2, ![5000, 256]⟩
abbrev S256x40 : Shape := ⟨2, ![256, 40]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩

abbrev nBuf : Space → Nat
  | .hbm => 60
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .bf16⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S256x128, .f32⟩
  | .hbm, ⟨41, _⟩ => ⟨S1x128, .f32⟩
  | .hbm, ⟨42, _⟩ => ⟨S100000x128, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .bf16⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S256x40, .f32⟩
  | .hbm, ⟨58, _⟩ => ⟨S1x40, .f32⟩
  | .hbm, ⟨59, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S256x128, .f32⟩
  | .local _ .vmem, ⟨7, _⟩ => ⟨S1x128, .f32⟩
  | .local _ .vmem, ⟨8, _⟩ => ⟨S5000x128, .bf16⟩
  | .local _ .vmem, ⟨9, _⟩ => ⟨S5000x128, .bf16⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x128, .bf16⟩
  | .local _ .vmem, ⟨15, _⟩ => ⟨S5000x128, .bf16⟩
  | .local _ .vmem, ⟨16, _⟩ => ⟨S256x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  concatenates_S128x128_S128x128_S256x128_d0 : Shape.Concatenates [S128x128, S128x128] S256x128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  concatenates_S128x40_S128x40_S256x40_d0 : Shape.Concatenates [S128x40, S128x40] S256x40 0
  shapeCasts_S40_S1x40 : S40.ShapeCasts S1x40
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S256x128_S5000x128_1_0_0_1_n_n_wf : DotDims.WF S5000x256 S256x128 S5000x128 [1] [0] [0] [1] [] []
  dot_S5000x256_S256x40_S5000x40_1_0_0_1_n_n_wf : DotDims.WF S5000x256 S256x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .bf16 = 32 ∨ (Rect.block (s := S100000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .bf16 = 32 ∨ (Rect.block (s := S100000x128) S5000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x40.size a ≤ S256x40.size a
  hwx1_3 : ∀ i : grid1.Coords, EltTy.bits .f32 = 32 ∨ (Rect.block (s := S256x40) S256x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S256x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x40, .f32⟩
  | .hbm, ⟨72, _⟩ => ⟨S1x40, .f32⟩
  | .hbm, ⟨73, _⟩ => ⟨S100000x40, .f32⟩
  | .hbm, ⟨74, _⟩ => ⟨S100000x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KRun.lean ====
/-
  The tiled program's run, with its result named.

  The program is four stretches in order: host operations (the degrees, the first neighbour sums, the stacked weights),
  the first tiled region, host operations again (the second neighbour sums over the hidden features), the second tiled
  region. Every weakly fair execution ends, and on each core every buffer the core holds whole ends at the contents the
  four stretches fold to from the launch memory. Read at the result buffer, that is what the second region's
  write-backs leave; read at an argument, it is the launch contents.
-/
import proofs.«158796_j49203145343455_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the eight arguments as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result buffer's last contents are the second region's output array after its last write-back. -/
theorem result_eq_arrAt (c : Dev nD) :
    W4 m ρ c (Proc.devRef .tc main_v41) = (dat1 (V3 m ρ) c).arrAt 5 cfg1.N := W4_arr m ρ c 5

/-- The hidden features the second region and the host operations before it read are the first region's output array
    after its last write-back. -/
theorem hidden_eq_arrAt (c : Dev nD) :
    W2 m ρ c (Proc.devRef .tc main_v27) = (dat0 (V1 m ρ) c).arrAt 5 cfg0.N := W2_arr m ρ c 5

end Cert.KernelIdeal.KRun

end
-- ==== Proof.HostValues.lean ====
/-
  What the host operations hand the two tiled regions.

  From the edge array the program takes the source row and the destination row. A node's neighbour sum adds, over
  every edge into it, the feature row of the edge's source (a negative source index counted from the end); its degree
  count adds a one per edge into it; its reciprocal degree is one over the larger of that count and one. The first
  region reads the neighbour sums of the node features, the reciprocal degrees, the features, the two first-layer
  weight matrices stacked and the first bias as a row; the second region reads the neighbour sums of the hidden features
  the first region left, the same reciprocal degrees, those hidden features, and the second layer's stacked weights
  and bias row. At the ideal instance the narrow float format the rows travel in is the identity.
-/
import proofs.«158796_j49203145343455_2_alg».proof.Proof.KRun
import Idealize.ShloMosaic.PureOps.Ideal
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

/-! ## The program's own terms -/

/-- The edges' source nodes. -/
def src (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- The edges' destination nodes. -/
def dst (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- A node's neighbour sum of the rows of `y`: over the edges into it, the row of the edge's source. -/
def agg (s d : (⟨S1600000, .i32⟩ : BufTy).Contents (Elt Ideal)) (y : S100000x128.Idx → EReal) : S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 y
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- A node's degree count: a one per edge into it. -/
def cnt (d : (⟨S1600000, .i32⟩ : BufTy).Contents (Elt Ideal)) : S100000.Idx → EReal :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- The reciprocal degrees, one per node, as a column. -/
def inv (d : (⟨S1600000, .i32⟩ : BufTy).Contents (Elt Ideal)) : S100000x1.Idx → EReal :=
  shapeCast S100000x1
    (Host.divf (F := Ideal) (broadcastInDim S100000 ![] bcast_S_S100000 (constant (F := Ideal) S_ .f32 0x3F800000#32))
      (maximumf (cnt d) (broadcastInDim S100000 ![] bcast_S_S100000 (constant (F := Ideal) S_ .f32 0x3F800000#32))))
    shapeCasts_S100000_S100000x1

variable (m : (ℓ : Loc nD τ sig) → Buf (Elt Ideal) ℓ) (ρ : Dev nD → PrngReg) (c : Dev nD)

/-! ## The first region's arrays as it finds them -/

theorem V1_msg : V1 m ρ c main_v24 = agg (src (m ((c : Thread nD τ).loc main_arg1))) (dst (m ((c : Thread nD τ).loc main_arg1))) (m ((c : Thread nD τ).loc main_arg0)) := by
  show StableHlo.after hostOps0 (W0 m ρ c) (Proc.devRef .tc main_v24) = _
  dsimp only [hostOps0]
  after_results_simp <;> rfl

theorem V1_inv : V1 m ρ c main_v12 = inv (dst (m ((c : Thread nD τ).loc main_arg1))) := by
  show StableHlo.after hostOps0 (W0 m ρ c) (Proc.devRef .tc main_v12) = _
  dsimp only [hostOps0]
  after_results_simp <;> rfl

theorem V1_x : V1 m ρ c main_arg0 = m ((c : Thread nD τ).loc main_arg0) := by
  show StableHlo.after hostOps0 (W0 m ρ c) (Proc.devRef .tc main_arg0) = _
  dsimp only [hostOps0]
  after_results_simp <;> rfl

theorem V1_W : V1 m ρ c main_v25
    = concatenate S256x128 0 [⟨S128x128, m ((c : Thread nD τ).loc main_arg2)⟩, ⟨S128x128, m ((c : Thread nD τ).loc main_arg4)⟩] concatenates_S128x128_S128x128_S256x128_d0 := by
  show StableHlo.after hostOps0 (W0 m ρ c) (Proc.devRef .tc main_v25) = _
  dsimp only [hostOps0]
  after_results_simp
  refine congrArg₂ (fun a b => concatenate S256x128 0 [⟨S128x128, a⟩, ⟨S128x128, b⟩] concatenates_S128x128_S128x128_S256x128_d0) ?_ ?_
  · after_results_simp <;> rfl
  · after_results_simp <;> rfl

theorem V1_b : V1 m ρ c main_v26 = shapeCast S1x128 (m ((c : Thread nD τ).loc main_arg3)) shapeCasts_S128_S1x128 := by
  show StableHlo.after hostOps0 (W0 m ρ c) (Proc.devRef .tc main_v26) = _
  dsimp only [hostOps0]
  after_results_simp <;> rfl

/-! ## Between the regions: what the first one leaves the host operations -/

theorem W2_src : W2 m ρ c (Proc.devRef .tc main_v1) = src (m ((c : Thread nD τ).loc main_arg1)) :=
  (W2_of_ne m ρ c main_v1 (by decide)).trans (by
    show StableHlo.after hostOps0 (W0 m ρ c) (Proc.devRef .tc main_v1) = _
    dsimp only [hostOps0]
    after_results_simp <;> rfl)

theorem W2_dst : W2 m ρ c (Proc.devRef .tc main_v3) = dst (m ((c : Thread nD τ).loc main_arg1)) :=
  (W2_of_ne m ρ c main_v3 (by decide)).trans (by
    show StableHlo.after hostOps0 (W0 m ρ c) (Proc.devRef .tc main_v3) = _
    dsimp only [hostOps0]
    after_results_simp <;> rfl)

/-- The reciprocal degrees pass through the first region unchanged: it only reads them. -/
theorem W2_inv : W2 m ρ c (Proc.devRef .tc main_v12) = inv (dst (m ((c : Thread nD τ).loc main_arg1))) :=
  (W2_arr m ρ c 1).trans (((dat0 (V1 m ρ) c).arrAt_in 1 rfl _).trans ((A_eq0 (V1 m ρ) c 1).trans (V1_inv m ρ c)))

theorem W2_arg5 : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    dsimp only [hostOps0]
    after_results_simp <;> rfl)

theorem W2_arg6 : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    dsimp only [hostOps0]
    after_results_simp <;> rfl)

theorem W2_arg7 : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    dsimp only [hostOps0]
    after_results_simp <;> rfl)

/-! ## The second region's arrays as it finds them -/

theorem V3_msg : V3 m ρ c main_v38
    = agg (src (m ((c : Thread nD τ).loc main_arg1))) (dst (m ((c : Thread nD τ).loc main_arg1))) (W2 m ρ c (Proc.devRef .tc main_v27)) := by
  show StableHlo.after hostOps1 (W2 m ρ c) (Proc.devRef .tc main_v38) = _
  dsimp only [hostOps1]
  after_results_simp
  rw [W2_src m ρ c, W2_dst m ρ c]
  rfl

theorem V3_inv : V3 m ρ c main_v12 = inv (dst (m ((c : Thread nD τ).loc main_arg1))) := by
  show StableHlo.after hostOps1 (W2 m ρ c) (Proc.devRef .tc main_v12) = _
  dsimp only [hostOps1]
  after_results_simp
  exact W2_inv m ρ c

theorem V3_h : V3 m ρ c main_v27 = W2 m ρ c (Proc.devRef .tc main_v27) := by
  show StableHlo.after hostOps1 (W2 m ρ c) (Proc.devRef .tc main_v27) = _
  dsimp only [hostOps1]
  after_results_simp <;> rfl

theorem V3_W : V3 m ρ c main_v39
    = concatenate S256x40 0 [⟨S128x40, m ((c : Thread nD τ).loc main_arg5)⟩, ⟨S128x40, m ((c : Thread nD τ).loc main_arg7)⟩] concatenates_S128x40_S128x40_S256x40_d0 := by
  show StableHlo.after hostOps1 (W2 m ρ c) (Proc.devRef .tc main_v39) = _
  dsimp only [hostOps1]
  after_results_simp
  refine congrArg₂ (fun a b => concatenate S256x40 0 [⟨S128x40, a⟩, ⟨S128x40, b⟩] concatenates_S128x40_S128x40_S256x40_d0) ?_ ?_
  · after_results_simp
    exact W2_arg5 m ρ c
  · after_results_simp
    exact W2_arg7 m ρ c

theorem V3_b : V3 m ρ c main_v40 = shapeCast S1x40 (m ((c : Thread nD τ).loc main_arg6)) shapeCasts_S40_S1x40 := by
  show StableHlo.after hostOps1 (W2 m ρ c) (Proc.devRef .tc main_v40) = _
  dsimp only [hostOps1]
  after_results_simp
  rw [W2_arg6 m ρ c]
  rfl

end Cert.KernelIdeal.Host

end
-- ==== Proof.Spec.lean ====
/-
  The mathematics both programs compute, entry by entry, on the extended reals.

  A graph layer takes node features `x` (100000 rows of 128), per node `n` the sum `msg n` of its in-neighbours'
  feature rows and their number `cnt n`, and returns at (n, j)

      (Σ_k (msg n k / max (cnt n) 1) · Wl k j  +  b j)  +  Σ_k x n k · Wr k j.

  The first layer is followed by `max(·, 0)`, the second by a row-wise log-softmax
  `z j − M − log Σ_k exp (z k − M)`, `M` the row's maximum.

  The tiled program forms the same entry as ONE sum over 256 products — the 128 of the scaled neighbour sum
  `msg n k · (1 / max (cnt n) 1)` against `Wl` followed by the 128 of `x` against `Wr` — plus the bias. The two agree
  on every extended real: `max c 1` is never zero, so `a · (1 / max c 1) = a / max c 1` (also at the infinities), and
  what is left is the order of a sum in a commutative monoid. No entry has to be finite.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Sage

open Idealize.ShloMosaic Idealize.ShloMosaic.ValueIdx

/-- The three float words the programs splat: 1.0, 0.0 and −∞. -/
abbrev oneW : EReal := Ideal.ofBits .f32 0x3F800000#32
abbrev zeroW : EReal := Ideal.ofBits .f32 0x00000000#32
abbrev negInfW : EReal := Ideal.ofBits .f32 0xFF800000#32

/-- A node's in-degree, at least one, is not zero — whatever extended real the count is. -/
theorem max_one_ne_zero (c : EReal) : max c oneW ≠ 0 := by
  have h1 : (1 : EReal) ≤ max c oneW := by
    show (1 : EReal) ≤ max c (Ideal.ofBits .f32 0x3F800000#32)
    rw [Ideal.ofBits_one_f32]; exact le_max_right _ _
  exact (lt_of_lt_of_le zero_lt_one h1).ne'

/-- Scaling by the reciprocal of the degree is dividing by it. -/
theorem mul_inv_degree (a c : EReal) : a * Ideal.div oneW (max c oneW) = Ideal.div a (max c oneW) := by
  show a * Ideal.div (Ideal.ofBits .f32 0x3F800000#32) (max c oneW) = Ideal.div a (max c oneW)
  rw [Ideal.ofBits_one_f32]
  exact Ideal.mul_one_div (max_one_ne_zero c)

/-- A sum over 256 terms is the sum of its first 128 and of its last 128. -/
theorem sum_256_split (f : Fin 256 → EReal) :
    ∑ k : Fin 256, f k = ∑ k : Fin 128, f (Fin.castAdd 128 k) + ∑ k : Fin 128, f (Fin.natAdd 128 k) :=
  Fin.sum_univ_add (M := EReal) (a := 128) (b := 128) f

/-- ONE ENTRY OF A LAYER, the two arrangements: the scaled neighbour sum and the node's own features contracted as one
    sum of 256 products (here already split in its two halves) plus the bias, against the quotient contracted, the
    bias added, then the node's own contraction added. -/
theorem layer_entry (a wl xr wr : Fin 128 → EReal) (c b : EReal) :
    (∑ k : Fin 128, (a k * Ideal.div oneW (max c oneW)) * wl k + ∑ k : Fin 128, xr k * wr k) + b
      = ((∑ k : Fin 128, Ideal.div (a k) (max c oneW) * wl k) + b) + ∑ k : Fin 128, xr k * wr k := by
  simp only [mul_inv_degree]
  exact add_right_comm _ _ _

/-- −∞ is neutral for the maximum. -/
theorem max_negInf (y : EReal) : max negInfW y = y := by
  show max (Ideal.ofBits .f32 0xFF800000#32) y = y
  simp [Ideal.ofBits, Ideal.ieee]

/-! ## The layers as functions of whole arrays -/

/-- A layer before its nonlinearity, `C` output channels being 128 here. -/
def conv128 (msg : (⟨2, ![100000, 128]⟩ : Shape).Idx → EReal) (cnt : (⟨1, ![100000]⟩ : Shape).Idx → EReal)
    (x : (⟨2, ![100000, 128]⟩ : Shape).Idx → EReal) (Wl : (⟨2, ![128, 128]⟩ : Shape).Idx → EReal)
    (b : (⟨1, ![128]⟩ : Shape).Idx → EReal) (Wr : (⟨2, ![128, 128]⟩ : Shape).Idx → EReal) :
    (⟨2, ![100000, 128]⟩ : Shape).Idx → EReal := fun i =>
  ((∑ k : Fin 128, Ideal.div (msg (ix2 (i 0) k)) (max (cnt (ix1 (i 0))) oneW) * Wl (ix2 k (i 1))) + b (ix1 (i 1)))
    + ∑ k : Fin 128, x (ix2 (i 0) k) * Wr (ix2 k (i 1))

/-- The hidden features: the first layer through `max(·, 0)`. -/
def hidden (msg : (⟨2, ![100000, 128]⟩ : Shape).Idx → EReal) (cnt : (⟨1, ![100000]⟩ : Shape).Idx → EReal)
    (x : (⟨2, ![100000, 128]⟩ : Shape).Idx → EReal) (Wl : (⟨2, ![128, 128]⟩ : Shape).Idx → EReal)
    (b : (⟨1, ![128]⟩ : Shape).Idx → EReal) (Wr : (⟨2, ![128, 128]⟩ : Shape).Idx → EReal) :
    (⟨2, ![100000, 128]⟩ : Shape).Idx → EReal := fun i => max (conv128 msg cnt x Wl b Wr i) zeroW

/-- The second layer's scores, 40 per node. -/
def conv40 (msg : (⟨2, ![100000, 128]⟩ : Shape).Idx → EReal) (cnt : (⟨1, ![100000]⟩ : Shape).Idx → EReal)
    (x : (⟨2, ![100000, 128]⟩ : Shape).Idx → EReal) (Wl : (⟨2, ![128, 40]⟩ : Shape).Idx → EReal)
    (b : (⟨1, ![40]⟩ : Shape).Idx → EReal) (Wr : (⟨2, ![128, 40]⟩ : Shape).Idx → EReal) :
    (⟨2, ![100000, 40]⟩ : Shape).Idx → EReal := fun i =>
  ((∑ k : Fin 128, Ideal.div (msg (ix2 (i 0) k)) (max (cnt (ix1 (i 0))) oneW) * Wl (ix2 k (i 1))) + b (ix1 (i 1)))
    + ∑ k : Fin 128, x (ix2 (i 0) k) * Wr (ix2 k (i 1))

/-- A row's maximum, folded from −∞. -/
def rowMax (z : (⟨2, ![100000, 40]⟩ : Shape).Idx → EReal) (n : Fin 100000) : EReal :=
  (Finset.univ : Finset (Fin 40)).fold max negInfW (fun k => z (ix2 n k))

/-- The row-wise log-softmax of the scores. -/
def logSoftmax (z : (⟨2, ![100000, 40]⟩ : Shape).Idx → EReal) : (⟨2, ![100000, 40]⟩ : Shape).Idx → EReal := fun i =>
  (z i - rowMax z (i 0)) - Ideal.log (∑ k : Fin 40, Ideal.exp (z (ix2 (i 0) k) - rowMax z (i 0)))

/-- THE WHOLE MODEL: two layers over one neighbour aggregation `agg` (a node's rows summed over its in-neighbours) and
    one degree count `cnt`, the hidden features feeding both the second aggregation and the second layer's own term. -/
def model (agg : ((⟨2, ![100000, 128]⟩ : Shape).Idx → EReal) → ((⟨2, ![100000, 128]⟩ : Shape).Idx → EReal))
    (cnt : (⟨1, ![100000]⟩ : Shape).Idx → EReal)
    (x : (⟨2, ![100000, 128]⟩ : Shape).Idx → EReal) (Wl1 : (⟨2, ![128, 128]⟩ : Shape).Idx → EReal)
    (b1 : (⟨1, ![128]⟩ : Shape).Idx → EReal) (Wr1 : (⟨2, ![128, 128]⟩ : Shape).Idx → EReal)
    (Wl2 : (⟨2, ![128, 40]⟩ : Shape).Idx → EReal) (b2 : (⟨1, ![40]⟩ : Shape).Idx → EReal)
    (Wr2 : (⟨2, ![128, 40]⟩ : Shape).Idx → EReal) : (⟨2, ![100000, 40]⟩ : Shape).Idx → EReal :=
  logSoftmax (conv40 (agg (hidden (agg x) cnt x Wl1 b1 Wr1)) cnt (hidden (agg x) cnt x Wl1 b1 Wr1) Wl2 b2 Wr2)

end Cert.Sage

end
-- ==== Proof.BlockOps.lean ====
/-
  The vector operations of one tile, read at an entry, on the extended reals.

  A tile is 5000 node rows. Its products contract a row of 256 — the 128 scaled neighbour sums followed by the node's own
  128 features — against the stacked weights: entry (p, q) is Σ_K cat p K · W K q with nothing accumulated before it. The
  concatenation reads its first piece on columns 0…127 and its second on 128…255; a column of per-row scalars broadcast
  along the row reads its row's scalar; a single row broadcast down the tile reads that row's column.
-/
import proofs.«158796_j49203145343455_2_alg».proof.Proof.Gen.KernelIdeal.Skeleton
import proofs.«158796_j49203145343455_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockOps

open Cert.KernelIdeal Cert.KernelIdeal.Gen Idealize.ShloMosaic Idealize.ShloMosaic.ValueIdx

/-! ## The two contractions -/

/-- The first layer's contraction: at output (p, q) and contraction position K the left operand is read at (p, K) and the
    right one at (K, q) — first coordinate by coordinate, then as indices. -/
theorem dotA_lhs0 (i : S5000x128.Idx) (r : dot_S5000x256_S256x128_S5000x128_1_0_0_1_n_n.contr.Idx) : (dot_S5000x256_S256x128_S5000x128_1_0_0_1_n_n.lhsIdx i r 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem dotA_lhs1 (i : S5000x128.Idx) (r : dot_S5000x256_S256x128_S5000x128_1_0_0_1_n_n.contr.Idx) : (dot_S5000x256_S256x128_S5000x128_1_0_0_1_n_n.lhsIdx i r 1).val = (r ⟨0, by decide⟩).val :=
  dot_S5000x256_S256x128_S5000x128_1_0_0_1_n_n.lhsIdx_val_of_single rfl i r
theorem dotA_rhs0 (i : S5000x128.Idx) (r : dot_S5000x256_S256x128_S5000x128_1_0_0_1_n_n.contr.Idx) : (dot_S5000x256_S256x128_S5000x128_1_0_0_1_n_n.rhsIdx i r 0).val = (r ⟨0, by decide⟩).val :=
  dot_S5000x256_S256x128_S5000x128_1_0_0_1_n_n.rhsIdx_val_of_single rfl i r
theorem dotA_rhs1 (i : S5000x128.Idx) (r : dot_S5000x256_S256x128_S5000x128_1_0_0_1_n_n.contr.Idx) : (dot_S5000x256_S256x128_S5000x128_1_0_0_1_n_n.rhsIdx i r 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

theorem dotA_lhs (p : Fin 5000) (q : Fin 128) (K : Fin 256) :
    dot_S5000x256_S256x128_S5000x128_1_0_0_1_n_n.lhsIdx (ix2 p q) ((contrEquiv1 dot_S5000x256_S256x128_S5000x128_1_0_0_1_n_n 256 rfl rfl).symm K) = ix2 p K := by
  have hk := contrEquiv1_symm_val dot_S5000x256_S256x128_S5000x128_1_0_0_1_n_n 256 rfl rfl K
  funext a; apply Fin.ext
  match a with
  | ⟨0, _⟩ => exact dotA_lhs0 _ _
  | ⟨1, _⟩ => exact (dotA_lhs1 _ _).trans hk

theorem dotA_rhs (p : Fin 5000) (q : Fin 128) (K : Fin 256) :
    dot_S5000x256_S256x128_S5000x128_1_0_0_1_n_n.rhsIdx (ix2 p q) ((contrEquiv1 dot_S5000x256_S256x128_S5000x128_1_0_0_1_n_n 256 rfl rfl).symm K) = ix2 K q := by
  have hk := contrEquiv1_symm_val dot_S5000x256_S256x128_S5000x128_1_0_0_1_n_n 256 rfl rfl K
  funext a; apply Fin.ext
  match a with
  | ⟨0, _⟩ => exact (dotA_rhs0 _ _).trans hk
  | ⟨1, _⟩ => exact dotA_rhs1 _ _

/-- The first layer's product into a zero accumulator, at (p, q): the plain sum over the 256 contracted positions. -/
theorem matmulA_at (A : FVec Ideal S5000x256 .bf16) (B : FVec Ideal S256x128 .bf16) (p : Fin 5000) (q : Fin 128) :
    matmul dot_S5000x256_S256x128_S5000x128_1_0_0_1_n_n none A B (constant (F := Ideal) S5000x128 .f32 0x00000000#32) (ix2 p q)
      = ∑ K : Fin 256, A (ix2 p K) * B (ix2 K q) := by
  refine (Ideal.matmul_constant_zero_apply dot_S5000x256_S256x128_S5000x128_1_0_0_1_n_n none A B (ix2 p q)).trans ?_
  rw [← Equiv.sum_comp (contrEquiv1 dot_S5000x256_S256x128_S5000x128_1_0_0_1_n_n 256 rfl rfl).symm]
  refine Finset.sum_congr rfl fun K _ => ?_
  rw [dotA_lhs, dotA_rhs]

/-- The second layer's contraction, the same with 40 output columns. -/
theorem dotB_lhs0 (i : S5000x40.Idx) (r : dot_S5000x256_S256x40_S5000x40_1_0_0_1_n_n.contr.Idx) : (dot_S5000x256_S256x40_S5000x40_1_0_0_1_n_n.lhsIdx i r 0).val = (i 0).val := by
  unfold DotDims.lhsIdx
  rw [dif_neg (show ¬(0 : Fin S5000x256.rank) ∈ dot_S5000x256_S256x40_S5000x40_1_0_0_1_n_n.lhsBatch by decide),
    dif_pos (show (0 : Fin S5000x256.rank) ∈ dot_S5000x256_S256x40_S5000x40_1_0_0_1_n_n.lhsNonContracting by decide)]
  rfl
theorem dotB_lhs1 (i : S5000x40.Idx) (r : dot_S5000x256_S256x40_S5000x40_1_0_0_1_n_n.contr.Idx) : (dot_S5000x256_S256x40_S5000x40_1_0_0_1_n_n.lhsIdx i r 1).val = (r ⟨0, by decide⟩).val :=
  dot_S5000x256_S256x40_S5000x40_1_0_0_1_n_n.lhsIdx_val_of_single rfl i r
theorem dotB_rhs0 (i : S5000x40.Idx) (r : dot_S5000x256_S256x40_S5000x40_1_0_0_1_n_n.contr.Idx) : (dot_S5000x256_S256x40_S5000x40_1_0_0_1_n_n.rhsIdx i r 0).val = (r ⟨0, by decide⟩).val :=
  dot_S5000x256_S256x40_S5000x40_1_0_0_1_n_n.rhsIdx_val_of_single rfl i r
theorem dotB_rhs1 (i : S5000x40.Idx) (r : dot_S5000x256_S256x40_S5000x40_1_0_0_1_n_n.contr.Idx) : (dot_S5000x256_S256x40_S5000x40_1_0_0_1_n_n.rhsIdx i r 1).val = (i 1).val := by
  unfold DotDims.rhsIdx
  rw [dif_neg (show ¬(1 : Fin S256x40.rank) ∈ dot_S5000x256_S256x40_S5000x40_1_0_0_1_n_n.rhsBatch by decide),
    dif_pos (show (1 : Fin S256x40.rank) ∈ dot_S5000x256_S256x40_S5000x40_1_0_0_1_n_n.rhsNonContracting by decide)]
  rfl

theorem dotB_lhs (p : Fin 5000) (q : Fin 40) (K : Fin 256) :
    dot_S5000x256_S256x40_S5000x40_1_0_0_1_n_n.lhsIdx (ix2 p q) ((contrEquiv1 dot_S5000x256_S256x40_S5000x40_1_0_0_1_n_n 256 rfl rfl).symm K) = ix2 p K := by
  have hk := contrEquiv1_symm_val dot_S5000x256_S256x40_S5000x40_1_0_0_1_n_n 256 rfl rfl K
  funext a; apply Fin.ext
  match a with
  | ⟨0, _⟩ => exact dotB_lhs0 _ _
  | ⟨1, _⟩ => exact (dotB_lhs1 _ _).trans hk

theorem dotB_rhs (p : Fin 5000) (q : Fin 40) (K : Fin 256) :
    dot_S5000x256_S256x40_S5000x40_1_0_0_1_n_n.rhsIdx (ix2 p q) ((contrEquiv1 dot_S5000x256_S256x40_S5000x40_1_0_0_1_n_n 256 rfl rfl).symm K) = ix2 K q := by
  have hk := contrEquiv1_symm_val dot_S5000x256_S256x40_S5000x40_1_0_0_1_n_n 256 rfl rfl K
  funext a; apply Fin.ext
  match a with
  | ⟨0, _⟩ => exact (dotB_rhs0 _ _).trans hk
  | ⟨1, _⟩ => exact dotB_rhs1 _ _

theorem matmulB_at (A : FVec Ideal S5000x256 .bf16) (B : FVec Ideal S256x40 .bf16) (p : Fin 5000) (q : Fin 40) :
    matmul dot_S5000x256_S256x40_S5000x40_1_0_0_1_n_n none A B (constant (F := Ideal) S5000x40 .f32 0x00000000#32) (ix2 p q)
      = ∑ K : Fin 256, A (ix2 p K) * B (ix2 K q) := by
  refine (Ideal.matmul_constant_zero_apply dot_S5000x256_S256x40_S5000x40_1_0_0_1_n_n none A B (ix2 p q)).trans ?_
  rw [← Equiv.sum_comp (contrEquiv1 dot_S5000x256_S256x40_S5000x40_1_0_0_1_n_n 256 rfl rfl).symm]
  refine Finset.sum_congr rfl fun K _ => ?_
  rw [dotB_lhs, dotB_rhs]

/-! ## The row of 256: two pieces of 128 side by side -/

/-- On its first 128 columns the concatenated row is the first piece. -/
theorem cat_left (a b : FVec Ideal S5000x128 .bf16) (p : Fin 5000) (k : Fin 128) :
    concatenate S5000x256 1 [⟨S5000x128, a⟩, ⟨S5000x128, b⟩] concatenates_S5000x128_S5000x128_S5000x256_d1 (ix2 p (Fin.castAdd 128 k))
      = a (ix2 p k) :=
  concatenate_pair_apply_left (1 : Fin S5000x256.rank) a b concatenates_S5000x128_S5000x128_S5000x256_d1 (ix2 p (Fin.castAdd 128 k)) rfl (ix2 p k)
    (fun c => match c with
      | ⟨0, _⟩ => rfl
      | ⟨1, _⟩ => rfl)

/-- On its last 128 columns it is the second piece, the column counted from 128. -/
theorem cat_right (a b : FVec Ideal S5000x128 .bf16) (p : Fin 5000) (k : Fin 128) :
    concatenate S5000x256 1 [⟨S5000x128, a⟩, ⟨S5000x128, b⟩] concatenates_S5000x128_S5000x128_S5000x256_d1 (ix2 p (Fin.natAdd 128 k))
      = b (ix2 p k) :=
  concatenate_pair_apply_right (1 : Fin S5000x256.rank) a b concatenates_S5000x128_S5000x128_S5000x256_d1 (ix2 p (Fin.natAdd 128 k)) rfl rfl (ix2 p k)
    (fun c hc => match c, hc with
      | ⟨0, _⟩, _ => rfl
      | ⟨1, _⟩, hc => absurd rfl hc)
    (by show k.val + 128 = 128 + k.val; omega)

/-! ## Broadcasts -/

/-- A column of per-row scalars broadcast along 128 columns reads its row's scalar. -/
theorem colBroadcast128_at (v : FVec Ideal S5000x1 .f32) (p : Fin 5000) (k : Fin 128) :
    broadcastTo S5000x128 v broadcasts_S5000x1_S5000x128 (ix2 p k) = v (ix2 p (0 : Fin 1)) :=
  broadcastTo_apply v broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- The same along 40 columns. -/
theorem colBroadcast40_at (v : FVec Ideal S5000x1 .f32) (p : Fin 5000) (k : Fin 40) :
    broadcastTo S5000x40 v broadcasts_S5000x1_S5000x40 (ix2 p k) = v (ix2 p (0 : Fin 1)) :=
  broadcastTo_apply v broadcasts_S5000x1_S5000x40 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- A vector of 5000 per-row scalars recast as a column reads the row's scalar. -/
theorem colCast_at (v : FVec Ideal S5000 .f32) (p : Fin 5000) :
    shapeCast S5000x1 v shapeCasts_S5000_S5000x1 (ix2 p (0 : Fin 1)) = v (ix1 p) :=
  shapeCast_apply v shapeCasts_S5000_S5000x1 (ix2 p (0 : Fin 1)) (ix1 p) (by
    simp only [Shape.rowMajor_val_two, Shape.rowMajor_val_one]
    show p.val = p.val * 1 + 0; omega)

end Cert.KernelIdeal.BlockOps

end
-- ==== Proof.Layer1Block.lean ====
/-
  The first tiled region: what its output array holds when it ends.

  The region runs 20 grid points; point t stages rows 5000·t … 5000·t + 4999 of the neighbour sums, of the reciprocal
  degrees and of the node features, the whole stacked weight matrix and the bias row, and writes back rows
  5000·t … 5000·t + 4999 of the hidden features. Entry (p, q) of what it writes is

      max ((Σ_{k<128} (msg p k · inv p) · W k q  +  Σ_{k<128} x p k · W (128 + k) q)  +  b q, 0).

  Read through the windows that is ONE function of the five arrays as the region finds them, entry by entry, and since
  the 20 row blocks tile the 100000 rows the output array ends holding that function everywhere.
-/
import proofs.«158796_j49203145343455_2_alg».proof.Proof.Gen.KernelIdeal.Frame
import proofs.«158796_j49203145343455_2_alg».proof.Proof.BlockOps

set_option maxRecDepth 16384

noncomputable section

open scoped BigOperators

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## One entry of a tile -/

/-- The hidden features as the tiled program arranges them: a function of the five arrays the region reads. -/
def tiled (msg : S100000x128.Idx → EReal) (inv : S100000x1.Idx → EReal) (x : S100000x128.Idx → EReal)
    (W : S256x128.Idx → EReal) (b : S1x128.Idx → EReal) : S100000x128.Idx → EReal := fun i =>
  max ((∑ k : Fin 128, (msg (ix2 (i 0) k) * inv (ix2 (i 0) (0 : Fin 1))) * W (ix2 (Fin.castAdd 128 k) (i 1))
        + ∑ k : Fin 128, x (ix2 (i 0) k) * W (ix2 (Fin.natAdd 128 k) (i 1))) + b (ix2 (0 : Fin 1) (i 1))) Sage.zeroW

/-- The tile's stored value at (p, q), from the five staged blocks. -/
theorem pay_at (x0 : Vec Ideal S5000x128 .f32) (x1 : Vec Ideal S5000x1 .f32) (x2 : Vec Ideal S5000x128 .f32)
    (x3 : Vec Ideal S256x128 .f32) (x4 : Vec Ideal S1x128 .f32) (p : Fin 5000) (q : Fin 128) :
    k0_pay1 (F := Ideal) x0 x1 x2 x3 x4 (ix2 p q)
      = max ((∑ k : Fin 128, (x0 (ix2 p k) * x1 (ix2 p (0 : Fin 1))) * x3 (ix2 (Fin.castAdd 128 k) q)
              + ∑ k : Fin 128, x2 (ix2 p k) * x3 (ix2 (Fin.natAdd 128 k) q)) + x4 (ix2 (0 : Fin 1) q)) Sage.zeroW := by
  unfold k0_pay1
  simp only [truncf_apply, maximumf_apply, addf_apply, broadcast_apply]
  refine congrArg₂ max (congrArg₂ (· + ·) ?_ ?_) rfl
  · refine (BlockOps.matmulA_at _ _ p q).trans ?_
    rw [Sage.sum_256_split]
    refine congrArg₂ (· + ·) (Finset.sum_congr rfl fun k _ => ?_) (Finset.sum_congr rfl fun k _ => ?_)
    · refine congrArg₂ (· * ·) ((BlockOps.cat_left _ _ p k).trans ?_) ?_
      · show (shapeCast S5000x128 x0 _) (ix2 p k) * broadcastTo S5000x128 (shapeCast S5000x1 x1 _) _ (ix2 p k) = _
        rw [shapeCast_self, BlockOps.colBroadcast128_at, shapeCast_self]
      · show (shapeCast S256x128 x3 _) (ix2 (Fin.castAdd 128 k) q) = _
        rw [shapeCast_self]
    · refine congrArg₂ (· * ·) ((BlockOps.cat_right _ _ p k).trans rfl) ?_
      show (shapeCast S256x128 x3 _) (ix2 (Fin.natAdd 128 k) q) = _
      rw [shapeCast_self]
  · refine (broadcastTo_1b_ab_apply _ _ p q).trans ?_
    rw [shapeCast_self]

/-- The same at any index of the tile, against the whole-array function at an index of the arrays: it is enough that
    each staged block, where the entry reads it, holds the array's entry the function reads. -/
theorem tile_eq (x0 : Vec Ideal S5000x128 .f32) (x1 : Vec Ideal S5000x1 .f32) (x2 : Vec Ideal S5000x128 .f32)
    (x3 : Vec Ideal S256x128 .f32) (x4 : Vec Ideal S1x128 .f32)
    (msg : S100000x128.Idx → EReal) (inv : S100000x1.Idx → EReal) (x : S100000x128.Idx → EReal)
    (W : S256x128.Idx → EReal) (b : S1x128.Idx → EReal) (y : S5000x128.Idx) (i : S100000x128.Idx)
    (h0 : ∀ k : Fin 128, x0 (ix2 (y 0) k) = msg (ix2 (i 0) k))
    (h1 : x1 (ix2 (y 0) (0 : Fin 1)) = inv (ix2 (i 0) (0 : Fin 1)))
    (h2 : ∀ k : Fin 128, x2 (ix2 (y 0) k) = x (ix2 (i 0) k))
    (h3 : ∀ K : Fin 256, x3 (ix2 K (y 1)) = W (ix2 K (i 1)))
    (h4 : x4 (ix2 (0 : Fin 1) (y 1)) = b (ix2 (0 : Fin 1) (i 1))) :
    k0_pay1 (F := Ideal) x0 x1 x2 x3 x4 y = tiled msg inv x W b i := by
  obtain ⟨p, q, rfl⟩ : ∃ (p : Fin 5000) (q : Fin 128), y = ix2 p q := ⟨y 0, y 1, eq_ix2 y⟩
  refine (pay_at x0 x1 x2 x3 x4 p q).trans ?_
  unfold tiled
  refine congrArg₂ max (congrArg₂ (· + ·) (congrArg₂ (· + ·) (Finset.sum_congr rfl fun k _ => ?_) (Finset.sum_congr rfl fun k _ => ?_)) h4) rfl
  · exact congrArg₂ (· * ·) (congrArg₂ (· * ·) (h0 k) h1) (h3 _)
  · exact congrArg₂ (· * ·) (h2 k) (h3 _)

/-! ## The windows' blocks, read through -/

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the 20 grid points: the three row-blocked inputs and the output sit at row block t,
    column block 0; the weights and the bias at block (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of the neighbour sums at (r, k) is the array at the output block's row for r, column k. -/
theorem read_msg (c : Dev nD) (t : Fin cfg0.N) (y : S5000x128.Idx) (k : Fin 128) :
    (iblk0 V c 0 t : Vec F S5000x128 .f32) (ix2 (y 0) k)
      = (V c main_v24 : S100000x128.Idx → Elt F .f32) (ix2 ((((cfg0.win 5).blk t).view.emb y) 0) k) := by
  obtain ⟨e00, e01, e10, e11, e20, e21, e30, e31, e40, e41, e50, e51⟩ := idx_facts t
  unfold iblk0
  rw [View.read_apply]
  show V c main_v24 _ = V c main_v24 _
  refine congrArg (V c main_v24) (funext fun a => Fin.ext ?_)
  match a with
  | ⟨0, _⟩ => show win0_0.index t (0 : Fin 2) * 5000 + 1 * (y 0).val = win0_5.index t (0 : Fin 2) * 5000 + 1 * (y 0).val; rw [e00, e50]
  | ⟨1, _⟩ => show win0_0.index t (1 : Fin 2) * 128 + 1 * k.val = k.val; rw [e01]; omega

/-- Block t of the reciprocal degrees at (r, 0). -/
theorem read_inv (c : Dev nD) (t : Fin cfg0.N) (y : S5000x128.Idx) :
    (iblk0 V c 1 t : Vec F S5000x1 .f32) (ix2 (y 0) (0 : Fin 1))
      = (V c main_v12 : S100000x1.Idx → Elt F .f32) (ix2 ((((cfg0.win 5).blk t).view.emb y) 0) (0 : Fin 1)) := by
  obtain ⟨e00, e01, e10, e11, e20, e21, e30, e31, e40, e41, e50, e51⟩ := idx_facts t
  unfold iblk0
  rw [View.read_apply]
  show V c main_v12 _ = V c main_v12 _
  refine congrArg (V c main_v12) (funext fun a => Fin.ext ?_)
  match a with
  | ⟨0, _⟩ => show win0_1.index t (0 : Fin 2) * 5000 + 1 * (y 0).val = win0_5.index t (0 : Fin 2) * 5000 + 1 * (y 0).val; rw [e10, e50]
  | ⟨1, _⟩ => show win0_1.index t (1 : Fin 2) * 1 + 1 * 0 = 0; rw [e11]

/-- Block t of the node features at (r, k). -/
theorem read_x (c : Dev nD) (t : Fin cfg0.N) (y : S5000x128.Idx) (k : Fin 128) :
    (iblk0 V c 2 t : Vec F S5000x128 .f32) (ix2 (y 0) k)
      = (V c main_arg0 : S100000x128.Idx → Elt F .f32) (ix2 ((((cfg0.win 5).blk t).view.emb y) 0) k) := by
  obtain ⟨e00, e01, e10, e11, e20, e21, e30, e31, e40, e41, e50, e51⟩ := idx_facts t
  unfold iblk0
  rw [View.read_apply]
  show V c main_arg0 _ = V c main_arg0 _
  refine congrArg (V c main_arg0) (funext fun a => Fin.ext ?_)
  match a with
  | ⟨0, _⟩ => show win0_2.index t (0 : Fin 2) * 5000 + 1 * (y 0).val = win0_5.index t (0 : Fin 2) * 5000 + 1 * (y 0).val; rw [e20, e50]
  | ⟨1, _⟩ => show win0_2.index t (1 : Fin 2) * 128 + 1 * k.val = k.val; rw [e21]; omega

/-- The stacked weights are staged whole: (K, column of y) is the array at (K, column of the output index). -/
theorem read_W (c : Dev nD) (t : Fin cfg0.N) (y : S5000x128.Idx) (K : Fin 256) :
    (iblk0 V c 3 t : Vec F S256x128 .f32) (ix2 K (y 1))
      = (V c main_v25 : S256x128.Idx → Elt F .f32) (ix2 K ((((cfg0.win 5).blk t).view.emb y) 1)) := by
  obtain ⟨e00, e01, e10, e11, e20, e21, e30, e31, e40, e41, e50, e51⟩ := idx_facts t
  unfold iblk0
  rw [View.read_apply]
  show V c main_v25 _ = V c main_v25 _
  refine congrArg (V c main_v25) (funext fun a => Fin.ext ?_)
  match a with
  | ⟨0, _⟩ => show win0_3.index t (0 : Fin 2) * 256 + 1 * K.val = K.val; rw [e30]; omega
  | ⟨1, _⟩ => show win0_3.index t (1 : Fin 2) * 128 + 1 * (y 1).val = win0_5.index t (1 : Fin 2) * 128 + 1 * (y 1).val; rw [e31, e51]

/-- The bias row is staged whole. -/
theorem read_b (c : Dev nD) (t : Fin cfg0.N) (y : S5000x128.Idx) :
    (iblk0 V c 4 t : Vec F S1x128 .f32) (ix2 (0 : Fin 1) (y 1))
      = (V c main_v26 : S1x128.Idx → Elt F .f32) (ix2 (0 : Fin 1) ((((cfg0.win 5).blk t).view.emb y) 1)) := by
  obtain ⟨e00, e01, e10, e11, e20, e21, e30, e31, e40, e41, e50, e51⟩ := idx_facts t
  unfold iblk0
  rw [View.read_apply]
  show V c main_v26 _ = V c main_v26 _
  refine congrArg (V c main_v26) (funext fun a => Fin.ext ?_)
  match a with
  | ⟨0, _⟩ => show win0_4.index t (0 : Fin 2) * 1 + 1 * 0 = 0; rw [e40]
  | ⟨1, _⟩ => show win0_4.index t (1 : Fin 2) * 128 + 1 * (y 1).val = win0_5.index t (1 : Fin 2) * 128 + 1 * (y 1).val; rw [e41, e51]

end Cert.KernelIdeal.Layer1

end
-- ==== Proof.Layer1Array.lean ====
/-
  The first tiled region's output array after its last write-back: the tiled arrangement of the hidden features, at
  every one of the 100000 × 128 entries.

  Point t writes back the block of rows 5000·t … 5000·t + 4999, all 128 columns; its contents are the tile's stored value,
  which entry by entry is the whole-array function read at the block's place in the array. Row r lies in the block of
  point r / 5000, so the 20 blocks cover the array and it ends holding that function.
-/
import proofs.«158796_j49203145343455_2_alg».proof.Proof.Layer1Block

set_option maxRecDepth 16384

noncomputable section

open scoped BigOperators

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- WHAT POINT t WRITES BACK is block t of the tiled hidden features of the arrays as the region finds them. -/
theorem flushed (c : Dev nD) (t : Fin cfg0.N) :
    (dat0 V c).flushed 5 t = ((cfg0.win 5).blk t).view.read (Elt Ideal)
      (tiled (V c main_v24) (V c main_v12) (V c main_arg0) (V c main_v25) (V c main_v26)) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x1) hz,
    View.ld_unit_zero (S := S256x128) hz, View.ld_unit_zero (S := S1x128) hz]
  funext y
  show k0_pay1 (F := Ideal) (iblk0 V c 0 t) (iblk0 V c 1 t) (iblk0 V c 2 t) (iblk0 V c 3 t) (iblk0 V c 4 t) y
    = tiled (V c main_v24) (V c main_v12) (V c main_arg0) (V c main_v25) (V c main_v26) (((cfg0.win 5).blk t).view.emb y)
  exact tile_eq _ _ _ _ _ _ _ _ _ _ y _ (fun k => read_msg V c t y k) (read_inv V c t y) (fun k => read_x V c t y k)
    (fun K => read_W V c t y K) (read_b V c t y)

/-- An index of the array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v27).slice (win0_5.rect t)).set ↔ _
  rw [View.set_slice_whole, Rect.mem_set_unit]
  exact Iff.rfl

/-- Every entry of the array is in the block of the point its row's quotient by 5000 names. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e00, e01, e10, e11, e20, e21, e30, e31, e40, e41, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e51]; omega

/-- THE ARRAY after the region: the tiled hidden features of the arrays as the region finds them. -/
theorem final (c : Dev nD) :
    (dat0 V c).arrAt 5 cfg0.N = tiled (V c main_v24) (V c main_v12) (V c main_arg0) (V c main_v25) (V c main_v26) :=
  (dat0 V c).arrAt_eq_of_cover 5 _ (fun t _ => flushed V c t) (cover)

end Cert.KernelIdeal.Layer1

end
-- ==== Proof.Layer2Block.lean ====
/-
  The second tiled region, one tile at an entry.

  A tile of 5000 rows forms its 40 scores per row exactly as the first region forms its 128 features (the scaled
  neighbour sums and the row's own hidden features contracted as one row of 256 against the stacked weights, plus the
  bias), then takes the row's maximum M from −∞, subtracts it, and subtracts the logarithm of the row's sum of
  exponentials: entry (p, q) is (z p q − M p) − log Σ_k exp (z p k − M p). That is the row-wise log-softmax of the
  tile's scores, and the scores are a function of the five arrays read through the windows.
-/
import proofs.«158796_j49203145343455_2_alg».proof.Proof.Gen.KernelIdeal.Frame
import proofs.«158796_j49203145343455_2_alg».proof.Proof.BlockOps

set_option maxRecDepth 16384

noncomputable section

open scoped BigOperators

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The scores -/

/-- The scores as the tiled program arranges them: a function of the five arrays the region reads. -/
def tiledScores (msg : S100000x128.Idx → EReal) (inv : S100000x1.Idx → EReal) (h : S100000x128.Idx → EReal)
    (W : S256x40.Idx → EReal) (b : S1x40.Idx → EReal) : S100000x40.Idx → EReal := fun i =>
  (∑ k : Fin 128, (msg (ix2 (i 0) k) * inv (ix2 (i 0) (0 : Fin 1))) * W (ix2 (Fin.castAdd 128 k) (i 1))
    + ∑ k : Fin 128, h (ix2 (i 0) k) * W (ix2 (Fin.natAdd 128 k) (i 1))) + b (ix2 (0 : Fin 1) (i 1))

/-- The tile's scores before the softmax, as the body computes them. -/
def scoresBlk (x0 : Vec Ideal S5000x128 .f32) (x1 : Vec Ideal S5000x1 .f32) (x2 : Vec Ideal S5000x128 .bf16)
    (x3 : Vec Ideal S256x40 .f32) (x4 : Vec Ideal S1x40 .f32) : FVec Ideal S5000x40 .f32 :=
  addf (matmul dot_S5000x256_S256x40_S5000x40_1_0_0_1_n_n none
      (concatenate S5000x256 1 [⟨S5000x128, truncf .bf16 (mulf (shapeCast S5000x128 x0 shapeCasts_S5000x128_S5000x128)
          (broadcastTo S5000x128 (shapeCast S5000x1 x1 shapeCasts_S5000x1_S5000x1) broadcasts_S5000x1_S5000x128)) bitsLt_bf16_f32⟩,
        ⟨S5000x128, shapeCast S5000x128 x2 shapeCasts_S5000x128_S5000x128⟩] concatenates_S5000x128_S5000x128_S5000x256_d1)
      (truncf .bf16 (shapeCast S256x40 x3 shapeCasts_S256x40_S256x40) bitsLt_bf16_f32)
      (constant (F := Ideal) S5000x40 .f32 0x00000000#32))
    (broadcastTo S5000x40 (shapeCast S1x40 x4 shapeCasts_S1x40_S1x40) broadcasts_S1x40_S5000x40)

/-- The tile's scores at (p, q). -/
theorem scores_at (x0 : Vec Ideal S5000x128 .f32) (x1 : Vec Ideal S5000x1 .f32) (x2 : Vec Ideal S5000x128 .bf16)
    (x3 : Vec Ideal S256x40 .f32) (x4 : Vec Ideal S1x40 .f32) (p : Fin 5000) (q : Fin 40) :
    scoresBlk x0 x1 x2 x3 x4 (ix2 p q)
      = (∑ k : Fin 128, (x0 (ix2 p k) * x1 (ix2 p (0 : Fin 1))) * x3 (ix2 (Fin.castAdd 128 k) q)
          + ∑ k : Fin 128, x2 (ix2 p k) * x3 (ix2 (Fin.natAdd 128 k) q)) + x4 (ix2 (0 : Fin 1) q) := by
  unfold scoresBlk
  simp only [addf_apply]
  refine congrArg₂ (· + ·) ?_ ?_
  · refine (BlockOps.matmulB_at _ _ p q).trans ?_
    rw [Sage.sum_256_split]
    refine congrArg₂ (· + ·) (Finset.sum_congr rfl fun k _ => ?_) (Finset.sum_congr rfl fun k _ => ?_)
    · refine congrArg₂ (· * ·) ((BlockOps.cat_left _ _ p k).trans ?_) ?_
      · show (shapeCast S5000x128 x0 _) (ix2 p k) * broadcastTo S5000x128 (shapeCast S5000x1 x1 _) _ (ix2 p k) = _
        rw [shapeCast_self, BlockOps.colBroadcast128_at, shapeCast_self]
      · show (shapeCast S256x40 x3 _) (ix2 (Fin.castAdd 128 k) q) = _
        rw [shapeCast_self]
    · refine congrArg₂ (· * ·) ((BlockOps.cat_right _ _ p k).trans ?_) ?_
      · rw [shapeCast_self]
      · show (shapeCast S256x40 x3 _) (ix2 (Fin.natAdd 128 k) q) = _
        rw [shapeCast_self]
  · refine (broadcastTo_1b_ab_apply _ _ p q).trans ?_
    rw [shapeCast_self]

/-! ## The row-wise log-softmax of a block of scores -/

/-- A row's maximum over its 40 scores, folded from −∞. -/
def rowMaxBlk (Z : FVec Ideal S5000x40 .f32) (p : Fin 5000) : EReal :=
  (Finset.univ : Finset (Fin 40)).fold max Sage.negInfW (fun k => Z (ix2 p k))

/-- The reduced index p with column k put back is (p, k). -/
theorem lift_row (p : Fin 5000) (k : Fin 40) : reduces_S5000x40_S5000.lift (ix1 p) k = ix2 p k := by
  funext c; apply Fin.ext
  match c with
  | ⟨0, _⟩ => rfl
  | ⟨1, _⟩ => rfl

/-- The lane maximum of a block of scores at row p. -/
theorem max_at (Z : FVec Ideal S5000x40 .f32) (p : Fin 5000) :
    multiReduction (F := Ideal) .maximumf [1] S5000 Z 0xFF800000#32 reduces_S5000x40_S5000 (.inl rfl) rfl (ix1 p) = rowMaxBlk Z p := by
  refine (Ideal.multiReduction_maximumf_single Z 0xFF800000#32 reduces_S5000x40_S5000 (.inl rfl) rfl (ix1 p)).trans ?_
  show (Finset.univ : Finset (Fin 40)).fold max Sage.negInfW (Z ∘ reduces_S5000x40_S5000.lift (ix1 p)) = _
  exact congrArg (fun f => (Finset.univ : Finset (Fin 40)).fold max Sage.negInfW f) (funext fun k => congrArg Z (lift_row p k))

/-- The lane sum of a block at row p. -/
theorem sum_at (Y : FVec Ideal S5000x40 .f32) (p : Fin 5000) :
    multiReduction (F := Ideal) .add [1] S5000 Y 0x00000000#32 reduces_S5000x40_S5000 (.inl rfl) rfl (ix1 p) = ∑ k : Fin 40, Y (ix2 p k) := by
  refine (Ideal.multiReduction_add_single Y 0x00000000#32 reduces_S5000x40_S5000 (.inl rfl) rfl (ix1 p)).trans ?_
  show ∑ k : Fin 40, Y (reduces_S5000x40_S5000.lift (ix1 p) k) = _
  exact Finset.sum_congr rfl fun k _ => congrArg Y (lift_row p k)

/-- The body's operations after the scores. -/
def softmaxTail (Z : FVec Ideal S5000x40 .f32) : FVec Ideal S5000x40 .f32 :=
  subf (subf Z (broadcastTo S5000x40 (shapeCast S5000x1
        (multiReduction (F := Ideal) .maximumf [1] S5000 Z 0xFF800000#32 reduces_S5000x40_S5000 (.inl rfl) rfl) shapeCasts_S5000_S5000x1) broadcasts_S5000x1_S5000x40))
    (broadcastTo S5000x40 (log (shapeCast S5000x1
        (multiReduction (F := Ideal) .add [1] S5000 (exp (subf Z (broadcastTo S5000x40 (shapeCast S5000x1
            (multiReduction (F := Ideal) .maximumf [1] S5000 Z 0xFF800000#32 reduces_S5000x40_S5000 (.inl rfl) rfl) shapeCasts_S5000_S5000x1) broadcasts_S5000x1_S5000x40)))
          0x00000000#32 reduces_S5000x40_S5000 (.inl rfl) rfl) shapeCasts_S5000_S5000x1)) broadcasts_S5000x1_S5000x40)

/-- The broadcast row maximum at (p, k). -/
theorem maxBroadcast_at (Z : FVec Ideal S5000x40 .f32) (p : Fin 5000) (k : Fin 40) :
    broadcastTo S5000x40 (shapeCast S5000x1
        (multiReduction (F := Ideal) .maximumf [1] S5000 Z 0xFF800000#32 reduces_S5000x40_S5000 (.inl rfl) rfl) shapeCasts_S5000_S5000x1) broadcasts_S5000x1_S5000x40 (ix2 p k)
      = rowMaxBlk Z p :=
  (BlockOps.colBroadcast40_at _ p k).trans ((BlockOps.colCast_at _ p).trans (max_at Z p))

/-- The tail at (p, q): the score less the row's maximum, less the logarithm of the row's sum of exponentials. -/
theorem tail_at (Z : FVec Ideal S5000x40 .f32) (p : Fin 5000) (q : Fin 40) :
    softmaxTail Z (ix2 p q) = (Z (ix2 p q) - rowMaxBlk Z p) - Ideal.log (∑ k : Fin 40, Ideal.exp (Z (ix2 p k) - rowMaxBlk Z p)) := by
  unfold softmaxTail
  simp only [subf_apply]
  refine congrArg₂ (· - ·) (congrArg₂ (· - ·) rfl (maxBroadcast_at Z p q)) ?_
  refine (BlockOps.colBroadcast40_at _ p q).trans ?_
  show Ideal.log (shapeCast S5000x1 _ shapeCasts_S5000_S5000x1 (ix2 p (0 : Fin 1))) = _
  refine congrArg Ideal.log ((BlockOps.colCast_at _ p).trans ((sum_at _ p).trans (Finset.sum_congr rfl fun k _ => ?_)))
  show Ideal.exp (Z (ix2 p k) - _) = _
  exact congrArg (fun mx => Ideal.exp (Z (ix2 p k) - mx)) (maxBroadcast_at Z p k)

/-- The stored value is the tail of the scores. -/
theorem pay_eq (x0 : Vec Ideal S5000x128 .f32) (x1 : Vec Ideal S5000x1 .f32) (x2 : Vec Ideal S5000x128 .bf16)
    (x3 : Vec Ideal S256x40 .f32) (x4 : Vec Ideal S1x40 .f32) :
    k1_pay1 (F := Ideal) x0 x1 x2 x3 x4 = softmaxTail (scoresBlk x0 x1 x2 x3 x4) := rfl

/-- One entry of a tile against the whole-array function: the row-wise log-softmax of the tiled scores, provided each
    staged block holds, where the row's 40 entries read it, the array's entries the function reads. -/
theorem tile_eq (x0 : Vec Ideal S5000x128 .f32) (x1 : Vec Ideal S5000x1 .f32) (x2 : Vec Ideal S5000x128 .bf16)
    (x3 : Vec Ideal S256x40 .f32) (x4 : Vec Ideal S1x40 .f32)
    (msg : S100000x128.Idx → EReal) (inv : S100000x1.Idx → EReal) (h : S100000x128.Idx → EReal)
    (W : S256x40.Idx → EReal) (b : S1x40.Idx → EReal) (y : S5000x40.Idx) (i : S100000x40.Idx)
    (hc : (i 1).val = (y 1).val)
    (h0 : ∀ k : Fin 128, x0 (ix2 (y 0) k) = msg (ix2 (i 0) k))
    (h1 : x1 (ix2 (y 0) (0 : Fin 1)) = inv (ix2 (i 0) (0 : Fin 1)))
    (h2 : ∀ k : Fin 128, x2 (ix2 (y 0) k) = h (ix2 (i 0) k))
    (h3 : ∀ (K : Fin 256) (c : Fin 40), x3 (ix2 K c) = W (ix2 K c))
    (h4 : ∀ c : Fin 40, x4 (ix2 (0 : Fin 1) c) = b (ix2 (0 : Fin 1) c)) :
    k1_pay1 (F := Ideal) x0 x1 x2 x3 x4 y = Sage.logSoftmax (tiledScores msg inv h W b) i := by
  obtain ⟨p, q, rfl⟩ : ∃ (p : Fin 5000) (q : Fin 40), y = ix2 p q := ⟨y 0, y 1, eq_ix2 y⟩
  obtain ⟨n, q', rfl⟩ : ∃ (n : Fin 100000) (q' : Fin 40), i = ix2 n q' := ⟨i 0, i 1, eq_ix2 i⟩
  obtain rfl : q' = q := Fin.ext hc
  -- every score of the row, block against array
  have hz : ∀ c : Fin 40, scoresBlk x0 x1 x2 x3 x4 (ix2 p c) = tiledScores msg inv h W b (ix2 n c) := fun c => by
    refine (scores_at x0 x1 x2 x3 x4 p c).trans ?_
    unfold tiledScores
    refine congrArg₂ (· + ·) (congrArg₂ (· + ·) (Finset.sum_congr rfl fun k _ => ?_) (Finset.sum_congr rfl fun k _ => ?_)) (h4 c)
    · exact congrArg₂ (· * ·) (congrArg₂ (· * ·) (h0 k) h1) (h3 _ c)
    · exact congrArg₂ (· * ·) (h2 k) (h3 _ c)
  have hm : rowMaxBlk (scoresBlk x0 x1 x2 x3 x4) p = Sage.rowMax (tiledScores msg inv h W b) n := by
    unfold rowMaxBlk Sage.rowMax
    exact congrArg (fun f => (Finset.univ : Finset (Fin 40)).fold max Sage.negInfW f) (funext hz)
  rw [pay_eq]
  refine (tail_at _ p q').trans ?_
  unfold Sage.logSoftmax
  show _ = (tiledScores msg inv h W b (ix2 n q') - Sage.rowMax (tiledScores msg inv h W b) n)
    - Ideal.log (∑ k : Fin 40, Ideal.exp (tiledScores msg inv h W b (ix2 n k) - Sage.rowMax (tiledScores msg inv h W b) n))
  rw [hm, hz q']
  refine congrArg (fun s => (tiledScores msg inv h W b (ix2 n q') - Sage.rowMax (tiledScores msg inv h W b) n) - Ideal.log s) ?_
  exact Finset.sum_congr rfl fun k _ => by rw [hz k]

end Cert.KernelIdeal.Layer2

end
-- ==== Proof.Layer2Array.lean ====
/-
  The second tiled region's output array after its last write-back: the row-wise log-softmax of the tiled scores, at
  every one of the 100000 × 40 entries.

  As in the first region, point t stages rows 5000·t … 5000·t + 4999 of the neighbour sums, the reciprocal degrees and
  the hidden features, the whole stacked weights and bias, and writes back those rows of the result, all 40 columns. A
  row's 40 results depend on that row's entries only, so block t of the result is block t of one whole-array function,
  and the 20 row blocks cover the array.
-/
import proofs.«158796_j49203145343455_2_alg».proof.Proof.Layer2Block

set_option maxRecDepth 16384

noncomputable section

open scoped BigOperators

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat Cfg Window)

section Reads
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the 20 grid points: the three row-blocked inputs and the output sit at row block t,
    column block 0; the weights and the bias at block (0, 0). -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The output block's columns are the array's columns. -/
theorem col_emb (t : Fin cfg1.N) (y : S5000x40.Idx) : ((((cfg1.win 5).blk t).view.emb y) 1).val = (y 1).val := by
  obtain ⟨e00, e01, e10, e11, e20, e21, e30, e31, e40, e41, e50, e51⟩ := idx_facts t
  show win1_5.index t (1 : Fin 2) * 40 + 1 * (y 1).val = (y 1).val
  rw [e51]; omega

/-- Block t of the neighbour sums at (r, k) is the array at the output block's row for r, column k. -/
theorem read_msg (c : Dev nD) (t : Fin cfg1.N) (y : S5000x40.Idx) (k : Fin 128) :
    (iblk1 V c 0 t : Vec F S5000x128 .f32) (ix2 (y 0) k)
      = (V c main_v38 : S100000x128.Idx → Elt F .f32) (ix2 ((((cfg1.win 5).blk t).view.emb y) 0) k) := by
  obtain ⟨e00, e01, e10, e11, e20, e21, e30, e31, e40, e41, e50, e51⟩ := idx_facts t
  unfold iblk1
  rw [View.read_apply]
  show V c main_v38 _ = V c main_v38 _
  refine congrArg (V c main_v38) (funext fun a => Fin.ext ?_)
  match a with
  | ⟨0, _⟩ => show win1_0.index t (0 : Fin 2) * 5000 + 1 * (y 0).val = win1_5.index t (0 : Fin 2) * 5000 + 1 * (y 0).val; rw [e00, e50]
  | ⟨1, _⟩ => show win1_0.index t (1 : Fin 2) * 128 + 1 * k.val = k.val; rw [e01]; omega

/-- Block t of the reciprocal degrees at (r, 0). -/
theorem read_inv (c : Dev nD) (t : Fin cfg1.N) (y : S5000x40.Idx) :
    (iblk1 V c 1 t : Vec F S5000x1 .f32) (ix2 (y 0) (0 : Fin 1))
      = (V c main_v12 : S100000x1.Idx → Elt F .f32) (ix2 ((((cfg1.win 5).blk t).view.emb y) 0) (0 : Fin 1)) := by
  obtain ⟨e00, e01, e10, e11, e20, e21, e30, e31, e40, e41, e50, e51⟩ := idx_facts t
  unfold iblk1
  rw [View.read_apply]
  show V c main_v12 _ = V c main_v12 _
  refine congrArg (V c main_v12) (funext fun a => Fin.ext ?_)
  match a with
  | ⟨0, _⟩ => show win1_1.index t (0 : Fin 2) * 5000 + 1 * (y 0).val = win1_5.index t (0 : Fin 2) * 5000 + 1 * (y 0).val; rw [e10, e50]
  | ⟨1, _⟩ => show win1_1.index t (1 : Fin 2) * 1 + 1 * 0 = 0; rw [e11]

/-- Block t of the hidden features at (r, k). -/
theorem read_h (c : Dev nD) (t : Fin cfg1.N) (y : S5000x40.Idx) (k : Fin 128) :
    (iblk1 V c 2 t : Vec F S5000x128 .bf16) (ix2 (y 0) k)
      = (V c main_v27 : S100000x128.Idx → Elt F .bf16) (ix2 ((((cfg1.win 5).blk t).view.emb y) 0) k) := by
  obtain ⟨e00, e01, e10, e11, e20, e21, e30, e31, e40, e41, e50, e51⟩ := idx_facts t
  unfold iblk1
  rw [View.read_apply]
  show V c main_v27 _ = V c main_v27 _
  refine congrArg (V c main_v27) (funext fun a => Fin.ext ?_)
  match a with
  | ⟨0, _⟩ => show win1_2.index t (0 : Fin 2) * 5000 + 1 * (y 0).val = win1_5.index t (0 : Fin 2) * 5000 + 1 * (y 0).val; rw [e20, e50]
  | ⟨1, _⟩ => show win1_2.index t (1 : Fin 2) * 128 + 1 * k.val = k.val; rw [e21]; omega

/-- The stacked weights are staged whole. -/
theorem read_W (c : Dev nD) (t : Fin cfg1.N) (K : Fin 256) (q : Fin 40) :
    (iblk1 V c 3 t : Vec F S256x40 .f32) (ix2 K q) = (V c main_v39 : S256x40.Idx → Elt F .f32) (ix2 K q) := by
  obtain ⟨e00, e01, e10, e11, e20, e21, e30, e31, e40, e41, e50, e51⟩ := idx_facts t
  unfold iblk1
  rw [View.read_apply]
  show V c main_v39 _ = V c main_v39 _
  refine congrArg (V c main_v39) (funext fun a => Fin.ext ?_)
  match a with
  | ⟨0, _⟩ => show win1_3.index t (0 : Fin 2) * 256 + 1 * K.val = K.val; rw [e30]; omega
  | ⟨1, _⟩ => show win1_3.index t (1 : Fin 2) * 40 + 1 * q.val = q.val; rw [e31]; omega

/-- The bias row is staged whole. -/
theorem read_b (c : Dev nD) (t : Fin cfg1.N) (q : Fin 40) :
    (iblk1 V c 4 t : Vec F S1x40 .f32) (ix2 (0 : Fin 1) q) = (V c main_v40 : S1x40.Idx → Elt F .f32) (ix2 (0 : Fin 1) q) := by
  obtain ⟨e00, e01, e10, e11, e20, e21, e30, e31, e40, e41, e50, e51⟩ := idx_facts t
  unfold iblk1
  rw [View.read_apply]
  show V c main_v40 _ = V c main_v40 _
  refine congrArg (V c main_v40) (funext fun a => Fin.ext ?_)
  match a with
  | ⟨0, _⟩ => show win1_4.index t (0 : Fin 2) * 1 + 1 * 0 = 0; rw [e40]
  | ⟨1, _⟩ => show win1_4.index t (1 : Fin 2) * 40 + 1 * q.val = q.val; rw [e41]; omega

end Reads

variable (V : (c : Dev nD) → (b : Ref sig .tc) → Buf (Elt Ideal) ((c : Thread nD τ).loc b))

/-- WHAT POINT t WRITES BACK is block t of the row-wise log-softmax of the tiled scores of the arrays as the region
    finds them. -/
theorem flushed (c : Dev nD) (t : Fin cfg1.N) :
    (dat1 V c).flushed 5 t = ((cfg1.win 5).blk t).view.read (Elt Ideal)
      (Sage.logSoftmax (tiledScores (V c main_v38) (V c main_v12) (V c main_v27) (V c main_v39) (V c main_v40))) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz,
    View.ld_unit_zero (S := S256x40) hz, View.ld_unit_zero (S := S1x40) hz]
  funext y
  show k1_pay1 (F := Ideal) (iblk1 V c 0 t) (iblk1 V c 1 t) (iblk1 V c 2 t) (iblk1 V c 3 t) (iblk1 V c 4 t) y
    = Sage.logSoftmax (tiledScores (V c main_v38) (V c main_v12) (V c main_v27) (V c main_v39) (V c main_v40))
        (((cfg1.win 5).blk t).view.emb y)
  exact tile_eq _ _ _ _ _ _ _ _ _ _ y _ (col_emb t y) (fun k => read_msg V c t y k) (read_inv V c t y)
    (fun k => read_h V c t y k) (fun K q => read_W V c t K q) (fun q => read_b V c t q)

/-- An index of the array is in point t's block iff each coordinate is in the block's range on its axis. -/
theorem mem_blk (t : Fin cfg1.N) (i : S100000x40.Idx) :
    i ∈ ((cfg1.win 5).blk t).view.set ↔ ∀ a : Fin 2, win1_5.index t a * S5000x40.size a ≤ (i a).val
      ∧ (i a).val < win1_5.index t a * S5000x40.size a + S5000x40.size a := by
  show i ∈ ((View.whole main_v41).slice (win1_5.rect t)).set ↔ _
  rw [View.set_slice_whole, Rect.mem_set_unit]
  exact Iff.rfl

/-- Every entry of the array is in the block of the point its row's quotient by 5000 names. -/
theorem cover (i : S100000x40.Idx) : ∃ t : Fin cfg1.N, (cfg1.win 5).flush t = true ∧ i ∈ ((cfg1.win 5).blk t).view.set := by
  have hi0 : (i 0).val < 100000 := (i 0).isLt
  have hi1 : (i 1).val < 40 := (i 1).isLt
  have hN : cfg1.N = 20 := N_1
  have ht : (i 0).val / 5000 < cfg1.N := by rw [hN]; omega
  obtain ⟨e00, e01, e10, e11, e20, e21, e30, e31, e40, e41, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 40 ≤ (i 1).val
      ∧ (i 1).val < win1_5.index ⟨(i 0).val / 5000, ht⟩ (1 : Fin 2) * 40 + 40
    rw [e51]; omega

/-- THE ARRAY after the region: the row-wise log-softmax of the tiled scores of the arrays as the region finds them. -/
theorem final (c : Dev nD) :
    (dat1 V c).arrAt 5 cfg1.N
      = Sage.logSoftmax (tiledScores (V c main_v38) (V c main_v12) (V c main_v27) (V c main_v39) (V c main_v40)) :=
  (dat1 V c).arrAt_eq_of_cover 5 _ (fun t _ => flushed V c t) (cover)

end Cert.KernelIdeal.Layer2

end
-- ==== Proof.KernelModel.lean ====
/-
  The tiled program computes the model.

  Entry by entry the tiled arrangement of a layer is the specification's: the reciprocal degree read at a node is one
  over the larger of its count and one, the stacked weights read on rows 0…127 are the neighbour weights and on rows
  128…255 the node's own, the bias row read at a column is the bias there — and then the one sum of 256 products plus
  the bias is the quotient's contraction, plus the bias, plus the node's own contraction. So the first region leaves the
  hidden features, the second region the log-softmax of the second layer's scores over them: the whole model, over the
  program's own neighbour aggregation and degree count.
-/
import proofs.«158796_j49203145343455_2_alg».proof.Proof.HostValues
import proofs.«158796_j49203145343455_2_alg».proof.Proof.Layer1Array
import proofs.«158796_j49203145343455_2_alg».proof.Proof.Layer2Array

set_option maxRecDepth 16384

noncomputable section

open scoped BigOperators

namespace Cert.KernelIdeal.Model

open Cert.KernelIdeal Cert.KernelIdeal.Gen Idealize.ShloMosaic Idealize.ShloMosaic.TcCoe Idealize.ShloMosaic.ValueIdx
open Idealize.SL.Sem

/-! ## The host's arrays read at an entry -/

/-- A node's reciprocal degree. -/
theorem inv_at (d : (⟨S1600000, .i32⟩ : BufTy).Contents (Elt Ideal)) (n : Fin 100000) :
    Host.inv d (ix2 n (0 : Fin 1)) = Ideal.div Sage.oneW (max (Host.cnt d (ix1 n)) Sage.oneW) := by
  unfold Host.inv
  refine (shapeCast_apply _ shapeCasts_S100000_S100000x1 (ix2 n (0 : Fin 1)) (ix1 n) ?_).trans ?_
  · simp only [Shape.rowMajor_val_two, Shape.rowMajor_val_one]
    show n.val = n.val * 1 + 0
    omega
  · rw [hostDivf_apply, maximumf_apply, broadcastInDim_scalar_apply]
    rfl

/-- The first layer's stacked weights: rows 0…127 are the neighbour weights … -/
theorem catA_top (Wl Wr : S128x128.Idx → EReal) (k : Fin 128) (j : Fin 128) :
    concatenate S256x128 0 [⟨S128x128, Wl⟩, ⟨S128x128, Wr⟩] concatenates_S128x128_S128x128_S256x128_d0 (ix2 (Fin.castAdd 128 k) j)
      = Wl (ix2 k j) :=
  concatenate_pair_apply_left (0 : Fin S256x128.rank) Wl Wr concatenates_S128x128_S128x128_S256x128_d0 (ix2 (Fin.castAdd 128 k) j) rfl (ix2 k j)
    (fun c => match c with
      | ⟨0, _⟩ => rfl
      | ⟨1, _⟩ => rfl)

/-- … and rows 128…255 the node's own. -/
theorem catA_bot (Wl Wr : S128x128.Idx → EReal) (k : Fin 128) (j : Fin 128) :
    concatenate S256x128 0 [⟨S128x128, Wl⟩, ⟨S128x128, Wr⟩] concatenates_S128x128_S128x128_S256x128_d0 (ix2 (Fin.natAdd 128 k) j)
      = Wr (ix2 k j) :=
  concatenate_pair_apply_right (0 : Fin S256x128.rank) Wl Wr concatenates_S128x128_S128x128_S256x128_d0 (ix2 (Fin.natAdd 128 k) j) rfl rfl (ix2 k j)
    (fun c hc => match c, hc with
      | ⟨0, _⟩, hc => absurd rfl hc
      | ⟨1, _⟩, _ => rfl)
    (by show k.val + 128 = 128 + k.val; omega)

/-- The second layer's stacked weights, the same with 40 columns. -/
theorem catB_top (Wl Wr : S128x40.Idx → EReal) (k : Fin 128) (j : Fin 40) :
    concatenate S256x40 0 [⟨S128x40, Wl⟩, ⟨S128x40, Wr⟩] concatenates_S128x40_S128x40_S256x40_d0 (ix2 (Fin.castAdd 128 k) j)
      = Wl (ix2 k j) :=
  concatenate_pair_apply_left (0 : Fin S256x40.rank) Wl Wr concatenates_S128x40_S128x40_S256x40_d0 (ix2 (Fin.castAdd 128 k) j) rfl (ix2 k j)
    (fun c => match c with
      | ⟨0, _⟩ => rfl
      | ⟨1, _⟩ => rfl)

theorem catB_bot (Wl Wr : S128x40.Idx → EReal) (k : Fin 128) (j : Fin 40) :
    concatenate S256x40 0 [⟨S128x40, Wl⟩, ⟨S128x40, Wr⟩] concatenates_S128x40_S128x40_S256x40_d0 (ix2 (Fin.natAdd 128 k) j)
      = Wr (ix2 k j) :=
  concatenate_pair_apply_right (0 : Fin S256x40.rank) Wl Wr concatenates_S128x40_S128x40_S256x40_d0 (ix2 (Fin.natAdd 128 k) j) rfl rfl (ix2 k j)
    (fun c hc => match c, hc with
      | ⟨0, _⟩, hc => absurd rfl hc
      | ⟨1, _⟩, _ => rfl)
    (by show k.val + 128 = 128 + k.val; omega)

/-! ## The two arrangements of a layer agree -/

/-- The first region's tiled hidden features are the specification's. -/
theorem tiled_eq_hidden (d : (⟨S1600000, .i32⟩ : BufTy).Contents (Elt Ideal)) (y x : S100000x128.Idx → EReal)
    (Wl Wr : S128x128.Idx → EReal) (b : S128.Idx → EReal) :
    Layer1.tiled y (Host.inv d) x
        (concatenate S256x128 0 [⟨S128x128, Wl⟩, ⟨S128x128, Wr⟩] concatenates_S128x128_S128x128_S256x128_d0)
        (shapeCast S1x128 b shapeCasts_S128_S1x128)
      = Sage.hidden y (Host.cnt d) x Wl b Wr := by
  funext i
  obtain ⟨n, j, rfl⟩ : ∃ (n : Fin 100000) (j : Fin 128), i = ix2 n j := ⟨i 0, i 1, eq_ix2 i⟩
  show max ((∑ k : Fin 128, (y (ix2 n k) * Host.inv d (ix2 n (0 : Fin 1)))
          * concatenate S256x128 0 [⟨S128x128, Wl⟩, ⟨S128x128, Wr⟩] concatenates_S128x128_S128x128_S256x128_d0 (ix2 (Fin.castAdd 128 k) j)
        + ∑ k : Fin 128, x (ix2 n k)
          * concatenate S256x128 0 [⟨S128x128, Wl⟩, ⟨S128x128, Wr⟩] concatenates_S128x128_S128x128_S256x128_d0 (ix2 (Fin.natAdd 128 k) j))
        + shapeCast S1x128 b shapeCasts_S128_S1x128 (ix2 (0 : Fin 1) j)) Sage.zeroW
    = max (((∑ k : Fin 128, Ideal.div (y (ix2 n k)) (max (Host.cnt d (ix1 n)) Sage.oneW) * Wl (ix2 k j)) + b (ix1 j))
        + ∑ k : Fin 128, x (ix2 n k) * Wr (ix2 k j)) Sage.zeroW
  rw [inv_at, shapeCast_a_1a_apply]
  simp only [catA_top, catA_bot]
  exact congrArg (fun t => max t Sage.zeroW)
    (Sage.layer_entry (fun k => y (ix2 n k)) (fun k => Wl (ix2 k j)) (fun k => x (ix2 n k)) (fun k => Wr (ix2 k j))
      (Host.cnt d (ix1 n)) (b (ix1 j)))

/-- The second region's tiled scores are the specification's. -/
theorem scores_eq_conv40 (d : (⟨S1600000, .i32⟩ : BufTy).Contents (Elt Ideal)) (y h : S100000x128.Idx → EReal)
    (Wl Wr : S128x40.Idx → EReal) (b : S40.Idx → EReal) :
    Layer2.tiledScores y (Host.inv d) h
        (concatenate S256x40 0 [⟨S128x40, Wl⟩, ⟨S128x40, Wr⟩] concatenates_S128x40_S128x40_S256x40_d0)
        (shapeCast S1x40 b shapeCasts_S40_S1x40)
      = Sage.conv40 y (Host.cnt d) h Wl b Wr := by
  funext i
  obtain ⟨n, j, rfl⟩ : ∃ (n : Fin 100000) (j : Fin 40), i = ix2 n j := ⟨i 0, i 1, eq_ix2 i⟩
  show (∑ k : Fin 128, (y (ix2 n k) * Host.inv d (ix2 n (0 : Fin 1)))
          * concatenate S256x40 0 [⟨S128x40, Wl⟩, ⟨S128x40, Wr⟩] concatenates_S128x40_S128x40_S256x40_d0 (ix2 (Fin.castAdd 128 k) j)
        + ∑ k : Fin 128, h (ix2 n k)
          * concatenate S256x40 0 [⟨S128x40, Wl⟩, ⟨S128x40, Wr⟩] concatenates_S128x40_S128x40_S256x40_d0 (ix2 (Fin.natAdd 128 k) j))
        + shapeCast S1x40 b shapeCasts_S40_S1x40 (ix2 (0 : Fin 1) j)
    = ((∑ k : Fin 128, Ideal.div (y (ix2 n k)) (max (Host.cnt d (ix1 n)) Sage.oneW) * Wl (ix2 k j)) + b (ix1 j))
        + ∑ k : Fin 128, h (ix2 n k) * Wr (ix2 k j)
  rw [inv_at, shapeCast_a_1a_apply]
  simp only [catB_top, catB_bot]
  exact Sage.layer_entry (fun k => y (ix2 n k)) (fun k => Wl (ix2 k j)) (fun k => h (ix2 n k)) (fun k => Wr (ix2 k j))
    (Host.cnt d (ix1 n)) (b (ix1 j))

/-! ## The result -/

variable (m : (ℓ : Loc nD τ sig) → Buf (Elt Ideal) ℓ) (ρ : Dev nD → PrngReg)

/-- What the first region leaves: the hidden features. -/
theorem hidden_eq (c : Dev nD) :
    (W2 m ρ c (Proc.devRef .tc main_v27) : S100000x128.Idx → EReal)
      = Sage.hidden (Host.agg (Host.src (m ((c : Thread nD τ).loc main_arg1))) (Host.dst (m ((c : Thread nD τ).loc main_arg1))) (m ((c : Thread nD τ).loc main_arg0))) (Host.cnt (Host.dst (m ((c : Thread nD τ).loc main_arg1))))
          (m ((c : Thread nD τ).loc main_arg0)) (m ((c : Thread nD τ).loc main_arg2)) (m ((c : Thread nD τ).loc main_arg3)) (m ((c : Thread nD τ).loc main_arg4)) := by
  refine (KRun.hidden_eq_arrAt m ρ c).trans ((Layer1.final (V1 m ρ) c).trans ?_)
  rw [Host.V1_msg m ρ c, Host.V1_inv m ρ c, Host.V1_x m ρ c, Host.V1_W m ρ c, Host.V1_b m ρ c]
  exact tiled_eq_hidden _ _ _ _ _ _

/-- What the second region leaves in the result buffer: the whole model. -/
theorem result_eq (c : Dev nD) :
    (W4 m ρ c (Proc.devRef .tc main_v41) : S100000x40.Idx → EReal)
      = Sage.model (Host.agg (Host.src (m ((c : Thread nD τ).loc main_arg1))) (Host.dst (m ((c : Thread nD τ).loc main_arg1)))) (Host.cnt (Host.dst (m ((c : Thread nD τ).loc main_arg1))))
          (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (KRun.result_eq_arrAt m ρ c).trans ((Layer2.final (V3 m ρ) c).trans ?_)
  rw [Host.V3_msg m ρ c, Host.V3_inv m ρ c, Host.V3_h m ρ c, Host.V3_W m ρ c, Host.V3_b m ρ c, hidden_eq m ρ c]
  unfold Sage.model
  exact congrArg Sage.logSoftmax (scores_eq_conv40 _ _ _ _ _ _)

/-- THE RUN of the tiled program at the ideal instance: every weakly fair execution ends without a fault with the
    model in the result buffer and the eight arguments as launched. -/
theorem run_model : θ_run defs (onTc (τ := τ) (main (F := Ideal))) ⟨m, fun _ => 0, ρ⟩ (fun r => ∀ c : Dev nD,
      r.2.mem ((c.tc : Thread nD τ).loc main_v41)
        = Sage.model (Host.agg (Host.src (m ((c : Thread nD τ).loc main_arg1))) (Host.dst (m ((c : Thread nD τ).loc main_arg1)))) (Host.cnt (Host.dst (m ((c : Thread nD τ).loc main_arg1))))
            (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (KRun.run_result m ρ)

end Cert.KernelIdeal.Model

end
-- ==== Proof.RefModel.lean ====
/-
  The plain program computes the model.

  Stage by stage, read at an entry: a node's degree is the larger of its count and one; the quotient of its neighbour sum
  by that degree, contracted against the neighbour weights, plus the bias, plus the node's own features contracted
  against its own weights, is a layer's entry in the model's arrangement; the first layer through max(·, 0) gives the
  hidden features, which the second layer both aggregates and contracts; and the last stages take a row's maximum from
  −∞, subtract it, and subtract the logarithm of the row's sum of exponentials — the row-wise log-softmax. Both layers
  use one neighbour aggregation and one degree count, the program's own terms.
-/
import proofs.«158796_j49203145343455_2_alg».proof.Proof.RefReadP
import proofs.«158796_j49203145343455_2_alg».proof.Proof.Spec

set_option maxRecDepth 16384

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo
open Idealize.ShloMosaic.ValueIdx
open scoped BigOperators

/-! ## The neighbour aggregation and the degree count, as the program's own terms -/

/-- Row `n` of the result is the sum of the rows `y (src e)` over the edges `e` whose destination is `n`: the rows of `y`
    gathered at the edges' sources (a negative source index wrapped by 100000), then added into a zero array at the edges'
    destinations. `ei` holds the sources in its row 0 and the destinations in its row 1. -/
def agg (ei : (⟨S2x1600000, .i32⟩ : BufTy).Contents (Elt Ideal)) (y : S100000x128.Idx → EReal) : S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![1, 0] ei slices_S2x1600000_S1x1600000_1_0) shapeCasts_S1x1600000_S1600000))
    (Host.gather gather_S100000x128_S1600000x1_S1600000x128_1_0_n_n_0_1_1128 y
      (broadcastInDim S1600000x1 ![0] bcast_S1600000_S1600000x1_0
        (select
          (cmpi .slt
            (shapeCast S1600000 (extractStridedSlice S1x1600000 ![0, 0] ei slices_S2x1600000_S1x1600000_0_0) shapeCasts_S1x1600000_S1600000)
            (broadcastInDim S1600000 ![] bcast_S_S1600000 (constantI S_ 32 0#32)))
          (addi
            (shapeCast S1600000 (extractStridedSlice S1x1600000 ![0, 0] ei slices_S2x1600000_S1x1600000_0_0) shapeCasts_S1x1600000_S1600000)
            (broadcastInDim S1600000 ![] bcast_S_S1600000 (constantI S_ 32 100000#32)))
          (shapeCast S1600000 (extractStridedSlice S1x1600000 ![0, 0] ei slices_S2x1600000_S1x1600000_0_0) shapeCasts_S1x1600000_S1600000))))

/-- Entry `n` is the number of edges whose destination is `n`: ones added into a zero array at the edges' destinations. -/
def cnt (ei : (⟨S2x1600000, .i32⟩ : BufTy).Contents (Elt Ideal)) : S100000.Idx → EReal :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0
      (shapeCast S1600000 (extractStridedSlice S1x1600000 ![1, 0] ei slices_S2x1600000_S1x1600000_1_0) shapeCasts_S1x1600000_S1600000))
    (broadcastInDim S1600000 ![] bcast_S_S1600000 (constant (F := Ideal) S_ .f32 0x3F800000#32))

/-- Both layers aggregate with this one function: the first the node features, the second the hidden ones … -/
theorem v13_eq_agg (x0 : (⟨S100000x128, .f32⟩ : BufTy).Contents (Elt Ideal)) (x1 : (⟨S2x1600000, .i32⟩ : BufTy).Contents (Elt Ideal)) :
    val_main_v13 (F := Ideal) x0 x1 = agg x1 x0 := rfl
theorem v39_eq_agg (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v39 (F := Ideal) x0 x1 x2 x3 x4 = agg x1 (val_main_v29 (F := Ideal) x0 x1 x2 x3 x4) := rfl
/-- … and both divide by this one count. -/
theorem v17_eq_cnt (x1 : (⟨S2x1600000, .i32⟩ : BufTy).Contents (Elt Ideal)) : val_main_v17 (F := Ideal) x1 = cnt x1 := rfl
theorem v43_eq_cnt (x1 : (⟨S2x1600000, .i32⟩ : BufTy).Contents (Elt Ideal)) : val_main_v43 (F := Ideal) x1 = cnt x1 := rfl

/-! ## The first layer -/

/-- A node's degree: the larger of its count and one. -/
theorem deg1_at (x1 : (⟨S2x1600000, .i32⟩ : BufTy).Contents (Elt Ideal)) (n : Fin 100000) :
    val_main_v19 (F := Ideal) x1 (ix1 n) = max (cnt x1 (ix1 n)) Cert.Sage.oneW := by
  rw [val_main_v19_apply, val_main_v18_apply, val_main_cst_3_apply, v17_eq_cnt]
  rfl

/-- The degree broadcast along a row is read at the row's node. -/
theorem idx20_21 (n : Fin 100000) (k : Fin 128) : idx_main_v20 (idx_main_v21 (ix2 n k)) = ix1 n :=
  funext fun a => Fin.ext (by match a with | ⟨0, _⟩ => rfl)

/-- The mean of a node's neighbours, entry (n, k): its neighbour sum over its degree. -/
theorem quot1_at (x0 : (⟨S100000x128, .f32⟩ : BufTy).Contents (Elt Ideal)) (x1 : (⟨S2x1600000, .i32⟩ : BufTy).Contents (Elt Ideal))
    (n : Fin 100000) (k : Fin 128) :
    val_main_v22 (F := Ideal) x0 x1 (ix2 n k) = Ideal.div (agg x1 x0 (ix2 n k)) (max (cnt x1 (ix1 n)) Cert.Sage.oneW) := by
  rw [val_main_v22_apply, val_main_v21_apply, val_main_v20_apply, idx20_21, deg1_at, v13_eq_agg]
  rfl

theorem lidx23 (n : Fin 100000) (j k : Fin 128) : lidx_main_v23 (ix2 n j) k = ix2 n k :=
  funext fun a => Fin.ext (by match a with | ⟨0, _⟩ => rfl | ⟨1, _⟩ => rfl)
theorem ridx23 (n : Fin 100000) (j k : Fin 128) : ridx_main_v23 (ix2 n j) k = ix2 k j :=
  funext fun a => Fin.ext (by match a with | ⟨0, _⟩ => rfl | ⟨1, _⟩ => rfl)
theorem lidx27 (n : Fin 100000) (j k : Fin 128) : lidx_main_v27 (ix2 n j) k = ix2 n k :=
  funext fun a => Fin.ext (by match a with | ⟨0, _⟩ => rfl | ⟨1, _⟩ => rfl)
theorem ridx27 (n : Fin 100000) (j k : Fin 128) : ridx_main_v27 (ix2 n j) k = ix2 k j :=
  funext fun a => Fin.ext (by match a with | ⟨0, _⟩ => rfl | ⟨1, _⟩ => rfl)
/-- The bias broadcast down a column is read at the column's channel. -/
theorem idx24_25 (n : Fin 100000) (j : Fin 128) : idx_main_v24 (idx_main_v25 (ix2 n j)) = ix1 j :=
  funext fun a => Fin.ext (by match a with | ⟨0, _⟩ => rfl)

/-- The first layer before its nonlinearity, at (n, j). -/
theorem conv1_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (n : Fin 100000) (j : Fin 128) :
    val_main_v28 (F := Ideal) x0 x1 x2 x3 x4 (ix2 n j) = Cert.Sage.conv128 (agg x1 x0) (cnt x1) x0 x2 x3 x4 (ix2 n j) := by
  rw [val_main_v28_apply, val_main_v26_apply, val_main_v23_apply, val_main_v27_apply, val_main_v25_apply, val_main_v24_apply,
    idx24_25]
  simp only [lidx23, ridx23, lidx27, ridx27, quot1_at]
  rfl

/-- THE HIDDEN FEATURES: the program's first layer is the model's over its own aggregation and count. -/
theorem hidden_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v29 (F := Ideal) x0 x1 x2 x3 x4 = Cert.Sage.hidden (agg x1 x0) (cnt x1) x0 x2 x3 x4 := by
  funext i
  obtain ⟨n, j, rfl⟩ : ∃ (n : Fin 100000) (j : Fin 128), i = ix2 n j := ⟨i 0, i 1, eq_ix2 i⟩
  rw [val_main_v29_apply, conv1_at, val_main_call0_v0_apply, val_main_call0_cst_apply]
  rfl

/-! ## The second layer -/

theorem deg2_at (x1 : (⟨S2x1600000, .i32⟩ : BufTy).Contents (Elt Ideal)) (n : Fin 100000) :
    val_main_v45 (F := Ideal) x1 (ix1 n) = max (cnt x1 (ix1 n)) Cert.Sage.oneW := by
  rw [val_main_v45_apply, val_main_v44_apply, val_main_cst_9_apply, v43_eq_cnt]
  rfl

theorem idx46_47 (n : Fin 100000) (k : Fin 128) : idx_main_v46 (idx_main_v47 (ix2 n k)) = ix1 n :=
  funext fun a => Fin.ext (by match a with | ⟨0, _⟩ => rfl)

/-- The mean of a node's neighbours' hidden features. -/
theorem quot2_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (n : Fin 100000) (k : Fin 128) :
    val_main_v48 (F := Ideal) x0 x1 x2 x3 x4 (ix2 n k)
      = Ideal.div (agg x1 (val_main_v29 (F := Ideal) x0 x1 x2 x3 x4) (ix2 n k)) (max (cnt x1 (ix1 n)) Cert.Sage.oneW) := by
  rw [val_main_v48_apply, val_main_v47_apply, val_main_v46_apply, idx46_47, deg2_at, v39_eq_agg]
  rfl

theorem lidx49 (n : Fin 100000) (j : Fin 40) (k : Fin 128) : lidx_main_v49 (ix2 n j) k = ix2 n k :=
  funext fun a => Fin.ext (by match a with | ⟨0, _⟩ => rfl | ⟨1, _⟩ => rfl)
theorem ridx49 (n : Fin 100000) (j : Fin 40) (k : Fin 128) : ridx_main_v49 (ix2 n j) k = ix2 k j :=
  funext fun a => Fin.ext (by match a with | ⟨0, _⟩ => rfl | ⟨1, _⟩ => rfl)
theorem lidx53 (n : Fin 100000) (j : Fin 40) (k : Fin 128) : lidx_main_v53 (ix2 n j) k = ix2 n k :=
  funext fun a => Fin.ext (by match a with | ⟨0, _⟩ => rfl | ⟨1, _⟩ => rfl)
theorem ridx53 (n : Fin 100000) (j : Fin 40) (k : Fin 128) : ridx_main_v53 (ix2 n j) k = ix2 k j :=
  funext fun a => Fin.ext (by match a with | ⟨0, _⟩ => rfl | ⟨1, _⟩ => rfl)
theorem idx50_51 (n : Fin 100000) (j : Fin 40) : idx_main_v50 (idx_main_v51 (ix2 n j)) = ix1 j :=
  funext fun a => Fin.ext (by match a with | ⟨0, _⟩ => rfl)

/-- The second layer's scores at (n, j), over the hidden features. -/
theorem conv2_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (x5 : (⟨S128x40, .f32⟩ : BufTy).Contents (Elt Ideal)) (x6 : (⟨S40, .f32⟩ : BufTy).Contents (Elt Ideal))
    (x7 : (⟨S128x40, .f32⟩ : BufTy).Contents (Elt Ideal)) (n : Fin 100000) (j : Fin 40) :
    val_main_v54 (F := Ideal) x0 x1 x2 x3 x4 x5 x6 x7 (ix2 n j)
      = Cert.Sage.conv40 (agg x1 (val_main_v29 (F := Ideal) x0 x1 x2 x3 x4)) (cnt x1) (val_main_v29 (F := Ideal) x0 x1 x2 x3 x4) x5 x6 x7 (ix2 n j) := by
  rw [val_main_v54_apply, val_main_v52_apply, val_main_v49_apply, val_main_v53_apply, val_main_v51_apply, val_main_v50_apply,
    idx50_51]
  simp only [lidx49, ridx49, lidx53, ridx53, quot2_at]
  rfl

/-- The scores as a whole array. -/
theorem scores_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (x5 : (⟨S128x40, .f32⟩ : BufTy).Contents (Elt Ideal)) (x6 : (⟨S40, .f32⟩ : BufTy).Contents (Elt Ideal))
    (x7 : (⟨S128x40, .f32⟩ : BufTy).Contents (Elt Ideal)) :
    val_main_v54 (F := Ideal) x0 x1 x2 x3 x4 x5 x6 x7
      = Cert.Sage.conv40 (agg x1 (val_main_v29 (F := Ideal) x0 x1 x2 x3 x4)) (cnt x1) (val_main_v29 (F := Ideal) x0 x1 x2 x3 x4) x5 x6 x7 := by
  funext i
  obtain ⟨n, j, rfl⟩ : ∃ (n : Fin 100000) (j : Fin 40), i = ix2 n j := ⟨i 0, i 1, eq_ix2 i⟩
  exact conv2_at x0 x1 x2 x3 x4 x5 x6 x7 n j

/-! ## The row-wise log-softmax -/

/-- The reduced index n with column k put back is (n, k). -/
theorem lift_row (h : S100000x40.Reduces [1] S100000) (n : Fin 100000) (k : Fin 40) : h.lift (ix1 n) k = ix2 n k := by
  funext c; apply Fin.ext
  match c with
  | ⟨0, _⟩ => rfl
  | ⟨1, _⟩ => rfl

/-- For any array of scores, the row's reduction by maximum from −∞ is the fold of the maximum over its 40 entries. -/
theorem reduceMax_gen (z : FVec Ideal S100000x40 .f32) (n : Fin 100000) :
    Host.reduce (FloatOps.maximumf (F := Ideal) (φ := .f32)) z (val_main_call1_cst (F := Ideal)) reducesTo_S100000x40_S100000_d1 h_S_ (ix1 n)
      = Cert.Sage.rowMax z n := by
  have hred : S100000x40.Reduces [1] S100000 := by decide
  refine (Host.reduce_eq_fold_single (FloatOps.maximumf (F := Ideal) (φ := .f32)) z
    (val_main_call1_cst (F := Ideal)) reducesTo_S100000x40_S100000_d1 hred h_S_ (ix1 n)).trans ?_
  unfold Cert.Sage.rowMax
  show (Finset.univ : Finset (Fin 40)).fold max Cert.Sage.negInfW (z ∘ hred.lift (ix1 n)) = _
  exact congrArg (fun f => (Finset.univ : Finset (Fin 40)).fold max Cert.Sage.negInfW f)
    (funext fun k => congrArg z (lift_row hred n k))

/-- So the program's reduction of its scores is their row maximum. -/
theorem reduceMax_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (x5 : (⟨S128x40, .f32⟩ : BufTy).Contents (Elt Ideal)) (x6 : (⟨S40, .f32⟩ : BufTy).Contents (Elt Ideal))
    (x7 : (⟨S128x40, .f32⟩ : BufTy).Contents (Elt Ideal)) (n : Fin 100000) :
    val_main_call1_v0 (F := Ideal) x0 x1 x2 x3 x4 x5 x6 x7 (ix1 n) = Cert.Sage.rowMax (val_main_v54 (F := Ideal) x0 x1 x2 x3 x4 x5 x6 x7) n := by
  unfold val_main_call1_v0
  exact reduceMax_gen _ n

/-- A row's maximum, as the program takes it: the larger of −∞ and that reduction. -/
theorem rowMax_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (x5 : (⟨S128x40, .f32⟩ : BufTy).Contents (Elt Ideal)) (x6 : (⟨S40, .f32⟩ : BufTy).Contents (Elt Ideal))
    (x7 : (⟨S128x40, .f32⟩ : BufTy).Contents (Elt Ideal)) (n : Fin 100000) :
    val_main_call1_v2 (F := Ideal) x0 x1 x2 x3 x4 x5 x6 x7 (ix1 n) = Cert.Sage.rowMax (val_main_v54 (F := Ideal) x0 x1 x2 x3 x4 x5 x6 x7) n := by
  rw [val_main_call1_v2_apply, val_main_call1_v1_apply, val_main_call1_cst_0_apply, reduceMax_at]
  generalize Cert.Sage.rowMax (val_main_v54 (F := Ideal) x0 x1 x2 x3 x4 x5 x6 x7) n = M
  exact Cert.Sage.max_negInf M

theorem idxc3_c4 (n : Fin 100000) (j : Fin 40) : idx_main_call1_v3 (idx_main_call1_v4 (ix2 n j)) = ix1 n :=
  funext fun a => Fin.ext (by match a with | ⟨0, _⟩ => rfl)
theorem idxc8_c10 (n : Fin 100000) (j : Fin 40) : idx_main_call1_v8 (idx_main_call1_v10 (ix2 n j)) = ix1 n :=
  funext fun a => Fin.ext (by match a with | ⟨0, _⟩ => rfl)
theorem idxc7 (n : Fin 100000) (k : Fin 40) : idx_main_call1_v7 (ix1 n) k = ix2 n k :=
  funext fun a => Fin.ext (by match a with | ⟨0, _⟩ => rfl | ⟨1, _⟩ => rfl)

/-- A score less its row's maximum. -/
theorem shifted_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (x5 : (⟨S128x40, .f32⟩ : BufTy).Contents (Elt Ideal)) (x6 : (⟨S40, .f32⟩ : BufTy).Contents (Elt Ideal))
    (x7 : (⟨S128x40, .f32⟩ : BufTy).Contents (Elt Ideal)) (n : Fin 100000) (j : Fin 40) :
    val_main_call1_v5 (F := Ideal) x0 x1 x2 x3 x4 x5 x6 x7 (ix2 n j)
      = val_main_v54 (F := Ideal) x0 x1 x2 x3 x4 x5 x6 x7 (ix2 n j) - Cert.Sage.rowMax (val_main_v54 (F := Ideal) x0 x1 x2 x3 x4 x5 x6 x7) n := by
  rw [val_main_call1_v5_apply, val_main_call1_v4_apply, val_main_call1_v3_apply, idxc3_c4, rowMax_at]
  generalize val_main_v54 (F := Ideal) x0 x1 x2 x3 x4 x5 x6 x7 = z
  rfl

/-- One term of a row's sum of exponentials. -/
theorem expTerm_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (x5 : (⟨S128x40, .f32⟩ : BufTy).Contents (Elt Ideal)) (x6 : (⟨S40, .f32⟩ : BufTy).Contents (Elt Ideal))
    (x7 : (⟨S128x40, .f32⟩ : BufTy).Contents (Elt Ideal)) (n : Fin 100000) (k : Fin 40) :
    val_main_call1_v6 (F := Ideal) x0 x1 x2 x3 x4 x5 x6 x7 (idx_main_call1_v7 (ix1 n) k)
      = Ideal.exp (val_main_v54 (F := Ideal) x0 x1 x2 x3 x4 x5 x6 x7 (ix2 n k) - Cert.Sage.rowMax (val_main_v54 (F := Ideal) x0 x1 x2 x3 x4 x5 x6 x7) n) := by
  rw [idxc7, val_main_call1_v6_apply, shifted_at]
  generalize val_main_v54 (F := Ideal) x0 x1 x2 x3 x4 x5 x6 x7 (ix2 n k) - Cert.Sage.rowMax (val_main_v54 (F := Ideal) x0 x1 x2 x3 x4 x5 x6 x7) n = y
  rfl

/-- A row's sum of exponentials: the program adds the 40 terms to a zero. -/
theorem sumExp_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (x5 : (⟨S128x40, .f32⟩ : BufTy).Contents (Elt Ideal)) (x6 : (⟨S40, .f32⟩ : BufTy).Contents (Elt Ideal))
    (x7 : (⟨S128x40, .f32⟩ : BufTy).Contents (Elt Ideal)) (n : Fin 100000) :
    val_main_call1_v7 (F := Ideal) x0 x1 x2 x3 x4 x5 x6 x7 (ix1 n)
      = ∑ k : Fin 40, Ideal.exp (val_main_v54 (F := Ideal) x0 x1 x2 x3 x4 x5 x6 x7 (ix2 n k) - Cert.Sage.rowMax (val_main_v54 (F := Ideal) x0 x1 x2 x3 x4 x5 x6 x7) n) := by
  rw [val_main_call1_v7_apply, val_main_call1_cst_1_apply]
  exact (congrArg₂ (· + ·) Ideal.ofBits_zero_f32 (Finset.sum_congr rfl fun k _ => expTerm_at x0 x1 x2 x3 x4 x5 x6 x7 n k)).trans (zero_add _)

/-- The logarithm of a row's sum of exponentials, broadcast along the row. -/
theorem lse_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (x5 : (⟨S128x40, .f32⟩ : BufTy).Contents (Elt Ideal)) (x6 : (⟨S40, .f32⟩ : BufTy).Contents (Elt Ideal))
    (x7 : (⟨S128x40, .f32⟩ : BufTy).Contents (Elt Ideal)) (n : Fin 100000) (j : Fin 40) :
    val_main_call1_v10 (F := Ideal) x0 x1 x2 x3 x4 x5 x6 x7 (ix2 n j)
      = Ideal.log (∑ k : Fin 40, Ideal.exp (val_main_v54 (F := Ideal) x0 x1 x2 x3 x4 x5 x6 x7 (ix2 n k) - Cert.Sage.rowMax (val_main_v54 (F := Ideal) x0 x1 x2 x3 x4 x5 x6 x7) n)) := by
  rw [val_main_call1_v10_apply, val_main_call1_v9_apply, val_main_call1_v8_apply, idxc8_c10, sumExp_at]
  generalize (∑ k : Fin 40, Ideal.exp (val_main_v54 (F := Ideal) x0 x1 x2 x3 x4 x5 x6 x7 (ix2 n k) - Cert.Sage.rowMax (val_main_v54 (F := Ideal) x0 x1 x2 x3 x4 x5 x6 x7) n)) = S
  rfl

/-- THE RESULT is the row-wise log-softmax of the scores. -/
theorem softmax_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (x5 : (⟨S128x40, .f32⟩ : BufTy).Contents (Elt Ideal)) (x6 : (⟨S40, .f32⟩ : BufTy).Contents (Elt Ideal))
    (x7 : (⟨S128x40, .f32⟩ : BufTy).Contents (Elt Ideal)) :
    val_main_v55 (F := Ideal) x0 x1 x2 x3 x4 x5 x6 x7 = Cert.Sage.logSoftmax (val_main_v54 (F := Ideal) x0 x1 x2 x3 x4 x5 x6 x7) := by
  funext i
  obtain ⟨n, j, rfl⟩ : ∃ (n : Fin 100000) (j : Fin 40), i = ix2 n j := ⟨i 0, i 1, eq_ix2 i⟩
  rw [val_main_v55_apply, shifted_at, lse_at]
  generalize val_main_v54 (F := Ideal) x0 x1 x2 x3 x4 x5 x6 x7 = z
  rfl

/-- THE PLAIN PROGRAM'S RESULT IS THE MODEL of its arguments, over its own aggregation and degree count. -/
theorem model_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (x5 : (⟨S128x40, .f32⟩ : BufTy).Contents (Elt Ideal)) (x6 : (⟨S40, .f32⟩ : BufTy).Contents (Elt Ideal))
    (x7 : (⟨S128x40, .f32⟩ : BufTy).Contents (Elt Ideal)) :
    val_main_v55 (F := Ideal) x0 x1 x2 x3 x4 x5 x6 x7 = Cert.Sage.model (agg x1) (cnt x1) x0 x2 x3 x4 x5 x6 x7 := by
  rw [softmax_eq, scores_eq, hidden_eq]
  rfl

end Cert.ReferenceIdeal.RefValue

end
-- ==== Proof.RefValue.lean ====
/-
  What the plain program's run ends with: the model of Spec.lean, of the arguments' launch contents.

  The program is a straight line of 84 array operations, and its run ends with every buffer at the FOLD of the operations'
  results over the launch contents (the imported run statement; the fold rewrites, operation by operation, the buffer
  each one writes). This file evaluates that fold at the result buffer, and does it in STRETCHES: a fold over a list is
  the fold over its first operations followed by the fold over the rest (`after_take_drop`), and each stretch is read
  from an ARBITRARY incoming valuation of which only the contents of the buffers it reads are known. So no term ever holds
  more than one stretch of the program, and the value a stretch ends with is met again, in the next one, as the same
  named stage applied to the same arguments. The cuts: after the hidden features (operation 38), after the second
  layer's scores (69), and, inside the row-wise log-softmax, after each of its two reductions and after the row maximum,
  so that a reduction's value is always the last thing a stretch computes.

  Put together (`after_ops_v55`): after the 84 operations the result buffer holds the program's last stage as a function
  of the eight arguments' contents; no operation writes an argument (`after_ops_arg0` …); and that last stage is the
  model (the imported `model_eq`). `run_model` is the run with these read in.
-/
import proofs.«158796_j49203145343455_2_alg».proof.Proof.RefReadP
import proofs.«158796_j49203145343455_2_alg».proof.Proof.RefModel

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## The fold of a list of operations, cut in two -/

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A list of operations runs as its first `n` operations, then the rest from where those end. -/
theorem after_take_drop (n : Nat) (l : List (HloOp τ sig (Elt F))) (V : Valuation τ sig (Elt F)) :
    after l V = after (l.drop n) (after (l.take n) V) := by
  rw [← after_append, List.take_append_drop]

/-! ## The 84 operations in six stretches

Each stretch is read from an ARBITRARY incoming valuation, of which it is told only what the buffers it reads hold, so
that every term stays the size of one stretch. The cuts fall after the hidden features (operation 38), after the
second layer's scores (69), and inside the log-softmax after each of its two reductions and after the row maximum: a
reduction's value is always the LAST thing a stretch computes and an opaque buffer content in the next one. -/

/-! ### Operations 1 to 38: the first layer -/

set_option maxRecDepth 8192 in
set_option maxHeartbeats 1000000 in
theorem stretchA_v29 (V : Valuation τ sig (Elt F)) :
    after ((ops (F := F)).take 38) V (Proc.devRef .tc main_v29)
      = val_main_v29 (V (Proc.devRef .tc main_arg0)) (V (Proc.devRef .tc main_arg1)) (V (Proc.devRef .tc main_arg2)) (V (Proc.devRef .tc main_arg3)) (V (Proc.devRef .tc main_arg4)) := by
  simp only [List.take_succ_cons, List.take_zero, List.drop_succ_cons, List.drop_zero]
  after_results_simp
  rfl

set_option maxRecDepth 8192 in
set_option maxHeartbeats 1000000 in
theorem stretchA_v1 (V : Valuation τ sig (Elt F)) :
    after ((ops (F := F)).take 38) V (Proc.devRef .tc main_v1) = val_main_v1 (V (Proc.devRef .tc main_arg1)) := by
  simp only [List.take_succ_cons, List.take_zero, List.drop_succ_cons, List.drop_zero]
  after_results_simp
  rfl

set_option maxRecDepth 8192 in
set_option maxHeartbeats 1000000 in
theorem stretchA_v3 (V : Valuation τ sig (Elt F)) :
    after ((ops (F := F)).take 38) V (Proc.devRef .tc main_v3) = val_main_v3 (V (Proc.devRef .tc main_arg1)) := by
  simp only [List.take_succ_cons, List.take_zero, List.drop_succ_cons, List.drop_zero]
  after_results_simp
  rfl

set_option maxRecDepth 8192 in
set_option maxHeartbeats 1000000 in
theorem stretchA_arg5 (V : Valuation τ sig (Elt F)) :
    after ((ops (F := F)).take 38) V (Proc.devRef .tc main_arg5) = V (Proc.devRef .tc main_arg5) := by
  simp only [List.take_succ_cons, List.take_zero, List.drop_succ_cons, List.drop_zero]
  after_results_simp

set_option maxRecDepth 8192 in
set_option maxHeartbeats 1000000 in
theorem stretchA_arg6 (V : Valuation τ sig (Elt F)) :
    after ((ops (F := F)).take 38) V (Proc.devRef .tc main_arg6) = V (Proc.devRef .tc main_arg6) := by
  simp only [List.take_succ_cons, List.take_zero, List.drop_succ_cons, List.drop_zero]
  after_results_simp

set_option maxRecDepth 8192 in
set_option maxHeartbeats 1000000 in
theorem stretchA_arg7 (V : Valuation τ sig (Elt F)) :
    after ((ops (F := F)).take 38) V (Proc.devRef .tc main_arg7) = V (Proc.devRef .tc main_arg7) := by
  simp only [List.take_succ_cons, List.take_zero, List.drop_succ_cons, List.drop_zero]
  after_results_simp

/-! ### Operations 39 to 69: the second layer's scores -/

set_option maxRecDepth 8192 in
set_option maxHeartbeats 1000000 in
theorem stretchB (W : Valuation τ sig (Elt F))
    (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128x40, .f32⟩ : BufTy).Contents (Elt F))
    (x6 : (⟨S40, .f32⟩ : BufTy).Contents (Elt F)) (x7 : (⟨S128x40, .f32⟩ : BufTy).Contents (Elt F))
    (h29 : W (Proc.devRef .tc main_v29) = val_main_v29 x0 x1 x2 x3 x4)
    (h1 : W (Proc.devRef .tc main_v1) = val_main_v1 x1) (h3 : W (Proc.devRef .tc main_v3) = val_main_v3 x1)
    (h5 : W (Proc.devRef .tc main_arg5) = x5) (h6 : W (Proc.devRef .tc main_arg6) = x6) (h7 : W (Proc.devRef .tc main_arg7) = x7) :
    after (((ops (F := F)).drop 38).take 31) W (Proc.devRef .tc main_v54) = val_main_v54 x0 x1 x2 x3 x4 x5 x6 x7 := by
  simp only [List.take_succ_cons, List.take_zero, List.drop_succ_cons, List.drop_zero]
  after_results_simp
  rw [h29, h1, h3, h5, h6, h7]
  rfl

/-! ### Operations 70 to 84: the log-softmax, a called function

Its operations are stated over typed references, so each value read back sits inside the transports between a buffer's
type and the tensor type it was declared with; at these literal references both are one type and the transports go
(`cast_eq`) before the value is compared. -/

set_option maxRecDepth 8192 in
set_option maxHeartbeats 1000000 in
theorem stretchC1 (W : Valuation τ sig (Elt F))
    (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128x40, .f32⟩ : BufTy).Contents (Elt F))
    (x6 : (⟨S40, .f32⟩ : BufTy).Contents (Elt F)) (x7 : (⟨S128x40, .f32⟩ : BufTy).Contents (Elt F))
    (h54 : W (Proc.devRef .tc main_v54) = val_main_v54 x0 x1 x2 x3 x4 x5 x6 x7) :
    after ((((ops (F := F)).drop 38).drop 31).take 2) W (Proc.devRef .tc main_call1_v0) = val_main_call1_v0 x0 x1 x2 x3 x4 x5 x6 x7 := by
  simp only [List.take_succ_cons, List.take_zero, List.drop_succ_cons, List.drop_zero]
  after_results_simp
  rw [h54]
  simp only [TRef.toBuf, TRef.ofBuf, cast_cast, cast_eq]
  rfl

set_option maxRecDepth 8192 in
set_option maxHeartbeats 1000000 in
theorem stretchC1_v54 (W : Valuation τ sig (Elt F)) :
    after ((((ops (F := F)).drop 38).drop 31).take 2) W (Proc.devRef .tc main_v54) = W (Proc.devRef .tc main_v54) := by
  simp only [List.take_succ_cons, List.take_zero, List.drop_succ_cons, List.drop_zero]
  after_results_simp

set_option maxRecDepth 8192 in
set_option maxHeartbeats 1000000 in
theorem stretchC2 (W : Valuation τ sig (Elt F))
    (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128x40, .f32⟩ : BufTy).Contents (Elt F))
    (x6 : (⟨S40, .f32⟩ : BufTy).Contents (Elt F)) (x7 : (⟨S128x40, .f32⟩ : BufTy).Contents (Elt F))
    (h0 : W (Proc.devRef .tc main_call1_v0) = val_main_call1_v0 x0 x1 x2 x3 x4 x5 x6 x7) :
    after (((((ops (F := F)).drop 38).drop 31).drop 2).take 3) W (Proc.devRef .tc main_call1_v2) = val_main_call1_v2 x0 x1 x2 x3 x4 x5 x6 x7 := by
  simp only [List.take_succ_cons, List.take_zero, List.drop_succ_cons, List.drop_zero]
  after_results_simp
  simp only [TRef.toBuf, TRef.ofBuf, cast_cast, cast_eq]
  rw [h0]
  rfl

set_option maxRecDepth 8192 in
set_option maxHeartbeats 1000000 in
theorem stretchC2_v54 (W : Valuation τ sig (Elt F)) :
    after (((((ops (F := F)).drop 38).drop 31).drop 2).take 3) W (Proc.devRef .tc main_v54) = W (Proc.devRef .tc main_v54) := by
  simp only [List.take_succ_cons, List.take_zero, List.drop_succ_cons, List.drop_zero]
  after_results_simp

set_option maxRecDepth 8192 in
set_option maxHeartbeats 1000000 in
theorem stretchC3_v5 (W : Valuation τ sig (Elt F))
    (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128x40, .f32⟩ : BufTy).Contents (Elt F))
    (x6 : (⟨S40, .f32⟩ : BufTy).Contents (Elt F)) (x7 : (⟨S128x40, .f32⟩ : BufTy).Contents (Elt F))
    (h54 : W (Proc.devRef .tc main_v54) = val_main_v54 x0 x1 x2 x3 x4 x5 x6 x7)
    (h2 : W (Proc.devRef .tc main_call1_v2) = val_main_call1_v2 x0 x1 x2 x3 x4 x5 x6 x7) :
    after ((((((ops (F := F)).drop 38).drop 31).drop 2).drop 3).take 6) W (Proc.devRef .tc main_call1_v5) = val_main_call1_v5 x0 x1 x2 x3 x4 x5 x6 x7 := by
  simp only [List.take_succ_cons, List.take_zero, List.drop_succ_cons, List.drop_zero]
  after_results_simp
  simp only [TRef.toBuf, TRef.ofBuf, cast_cast, cast_eq]
  rw [h54, h2]
  rfl

set_option maxRecDepth 8192 in
set_option maxHeartbeats 1000000 in
theorem stretchC3_v7 (W : Valuation τ sig (Elt F))
    (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128x40, .f32⟩ : BufTy).Contents (Elt F))
    (x6 : (⟨S40, .f32⟩ : BufTy).Contents (Elt F)) (x7 : (⟨S128x40, .f32⟩ : BufTy).Contents (Elt F))
    (h54 : W (Proc.devRef .tc main_v54) = val_main_v54 x0 x1 x2 x3 x4 x5 x6 x7)
    (h2 : W (Proc.devRef .tc main_call1_v2) = val_main_call1_v2 x0 x1 x2 x3 x4 x5 x6 x7) :
    after ((((((ops (F := F)).drop 38).drop 31).drop 2).drop 3).take 6) W (Proc.devRef .tc main_call1_v7) = val_main_call1_v7 x0 x1 x2 x3 x4 x5 x6 x7 := by
  simp only [List.take_succ_cons, List.take_zero, List.drop_succ_cons, List.drop_zero]
  after_results_simp
  simp only [TRef.toBuf, TRef.ofBuf, cast_cast, cast_eq]
  rw [h54, h2]
  rfl

set_option maxRecDepth 8192 in
set_option maxHeartbeats 1000000 in
theorem stretchC4 (W : Valuation τ sig (Elt F))
    (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128x40, .f32⟩ : BufTy).Contents (Elt F))
    (x6 : (⟨S40, .f32⟩ : BufTy).Contents (Elt F)) (x7 : (⟨S128x40, .f32⟩ : BufTy).Contents (Elt F))
    (h5 : W (Proc.devRef .tc main_call1_v5) = val_main_call1_v5 x0 x1 x2 x3 x4 x5 x6 x7)
    (h7 : W (Proc.devRef .tc main_call1_v7) = val_main_call1_v7 x0 x1 x2 x3 x4 x5 x6 x7) :
    after ((((((ops (F := F)).drop 38).drop 31).drop 2).drop 3).drop 6) W (Proc.devRef .tc main_v55) = val_main_v55 x0 x1 x2 x3 x4 x5 x6 x7 := by
  simp only [List.take_succ_cons, List.take_zero, List.drop_succ_cons, List.drop_zero]
  after_results_simp
  simp only [TRef.toBuf, TRef.ofBuf, cast_cast, cast_eq]
  rw [h5, h7]
  rfl

/-! ## All 84 operations -/

/-- WHAT THE RESULT BUFFER HOLDS after the 84 operations, from any contents: the program's last value as a function of
    the eight arguments' contents — the six stretches, each handing the next what it reads. -/
theorem after_ops_v55 (V : Valuation τ sig (Elt F)) :
    after (ops (F := F)) V (Proc.devRef .tc main_v55)
      = val_main_v55 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_take_drop 38 (ops (F := F)) V, after_take_drop 31 ((ops (F := F)).drop 38), after_take_drop 2 (((ops (F := F)).drop 38).drop 31), after_take_drop 3 ((((ops (F := F)).drop 38).drop 31).drop 2),
    after_take_drop 6 (((((ops (F := F)).drop 38).drop 31).drop 2).drop 3)]
  have hB := stretchB _ _ _ _ _ _ _ _ _ (stretchA_v29 V) (stretchA_v1 V) (stretchA_v3 V) (stretchA_arg5 V) (stretchA_arg6 V)
    (stretchA_arg7 V)
  have h0 := stretchC1 _ _ _ _ _ _ _ _ _ hB
  have k1 := (stretchC1_v54 _).trans hB
  have h2 := stretchC2 _ _ _ _ _ _ _ _ _ h0
  have k2 := (stretchC2_v54 _).trans k1
  exact stretchC4 _ _ _ _ _ _ _ _ _ (stretchC3_v5 _ _ _ _ _ _ _ _ _ k2 h2) (stretchC3_v7 _ _ _ _ _ _ _ _ _ k2 h2)

/-! No operation writes an argument's buffer: it holds at the end what it held at the launch. -/

set_option maxRecDepth 8192 in
set_option maxHeartbeats 1000000 in
theorem after_ops_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxRecDepth 8192 in
set_option maxHeartbeats 1000000 in
theorem after_ops_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

set_option maxRecDepth 8192 in
set_option maxHeartbeats 1000000 in
theorem after_ops_arg2 (m : (ℓ : Loc nD τ sig) → Buf (Elt F) ℓ) (c : Dev nD) :
    after (ops (F := F)) (launchContents m c) (Proc.devRef .tc main_arg2) = m ((c.tc : Thread nD τ).loc main_arg2) := by
  after_results_simp <;> rfl

set_option maxRecDepth 8192 in
set_option maxHeartbeats 1000000 in
theorem after_ops_arg3 (m : (ℓ : Loc nD τ sig) → Buf (Elt F) ℓ) (c : Dev nD) :
    after (ops (F := F)) (launchContents m c) (Proc.devRef .tc main_arg3) = m ((c.tc : Thread nD τ).loc main_arg3) := by
  after_results_simp <;> rfl

set_option maxRecDepth 8192 in
set_option maxHeartbeats 1000000 in
theorem after_ops_arg4 (m : (ℓ : Loc nD τ sig) → Buf (Elt F) ℓ) (c : Dev nD) :
    after (ops (F := F)) (launchContents m c) (Proc.devRef .tc main_arg4) = m ((c.tc : Thread nD τ).loc main_arg4) := by
  after_results_simp <;> rfl

set_option maxRecDepth 8192 in
set_option maxHeartbeats 1000000 in
theorem after_ops_arg5 (m : (ℓ : Loc nD τ sig) → Buf (Elt F) ℓ) (c : Dev nD) :
    after (ops (F := F)) (launchContents m c) (Proc.devRef .tc main_arg5) = m ((c.tc : Thread nD τ).loc main_arg5) := by
  after_results_simp <;> rfl

set_option maxRecDepth 8192 in
set_option maxHeartbeats 1000000 in
theorem after_ops_arg6 (m : (ℓ : Loc nD τ sig) → Buf (Elt F) ℓ) (c : Dev nD) :
    after (ops (F := F)) (launchContents m c) (Proc.devRef .tc main_arg6) = m ((c.tc : Thread nD τ).loc main_arg6) := by
  after_results_simp <;> rfl

set_option maxRecDepth 8192 in
set_option maxHeartbeats 1000000 in
theorem after_ops_arg7 (m : (ℓ : Loc nD τ sig) → Buf (Elt F) ℓ) (c : Dev nD) :
    after (ops (F := F)) (launchContents m c) (Proc.devRef .tc main_arg7) = m ((c.tc : Thread nD τ).loc main_arg7) := by
  after_results_simp <;> rfl

/-! ## The run -/

/-- On every device, from any memory with zero counters, every weakly fair execution of the program terminates with the
    result buffer at the program's last value of the arguments' launch contents, and the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = val_main_v55 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v55).trans (after_ops_v55 (launchContents m c)),
      (h c main_arg0).trans (after_ops_arg0 m c),
      (h c main_arg1).trans (after_ops_arg1 m c),
      (h c main_arg2).trans (after_ops_arg2 m c),
      (h c main_arg3).trans (after_ops_arg3 m c),
      (h c main_arg4).trans (after_ops_arg4 m c),
      (h c main_arg5).trans (after_ops_arg5 m c),
      (h c main_arg6).trans (after_ops_arg6 m c),
      (h c main_arg7).trans (after_ops_arg7 m c)⟩)
    (run_all m ρ)

/-- THE REFERENCE RUN: on every device, from any memory with zero counters, every weakly fair execution of the plain
    program at the ideal values terminates with the result buffer at the MODEL — two layers over the program's own
    neighbour aggregation and degree count of the edge list, then the row-wise log-softmax — of the arguments' launch
    contents, and the eight arguments unchanged. -/
theorem run_model (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ fun r => ∀ c : Dev nD,
      r.2.mem ((c.tc : Thread nD τ).loc main_v55)
        = Cert.Sage.model (agg (m ((c.tc : Thread nD τ).loc main_arg1))) (cnt (m ((c.tc : Thread nD τ).loc main_arg1)))
            (m ((c.tc : Thread nD τ).loc main_arg0)) (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run Cert.ReferenceIdeal.defs _ _).mono (fun _ h c => ⟨(h c).1.trans (model_eq _ _ _ _ _ _ _ _), (h c).2⟩)
    (run_val (F := Ideal) m ρ)

end Cert.ReferenceIdeal.RefValue

end
-- ==== Proof.lean ====
/-
  A two-layer graph network over 100000 nodes and 1600000 edges, tiled, against its plain form.

  Each layer replaces a node's features by  (mean of its in-neighbours' features) · Wl + b + (its own features) · Wr,
  the mean being the neighbour sum divided by the larger of the in-degree and one; the first layer is followed by
  max(·, 0), the second by a row-wise log-softmax. The plain form computes exactly that. The tiled form leaves the
  neighbour sums and the degree count to the host, multiplies the sums by the reciprocal degree inside two tiled regions
  of 20 row blocks each, contracts the scaled sums and the node's own features as ONE row of 256 against the two weight
  matrices stacked, adds the bias, and carries the hidden features between the regions in a narrower float format.

  On the extended reals the two agree entry by entry. The narrower format is the identity. Multiplying by 1 / d is
  dividing by d for every d that is not zero, infinite or not, and d = max(count, 1) is at least one. A sum of 256
  products is the sum of its two halves, and moving the bias across the second half is the order of a sum in a
  commutative monoid. Both programs feed the SAME neighbour aggregation — over the edges into a node, the row of the
  edge's source — the first time with the node features and the second time with the hidden features, so it never has
  to be opened: only the arrays it is applied to have to agree, and they do. No entry has to be finite, and the
  precondition is not used beyond what the frames take.

  The three frames: the tiled program's two are the generated ones; the plain program's is its run with the result
  dropped. The idealization rewrote nothing, so it preserves trivially.
-/
import proofs.«158796_j49203145343455_2_alg».proof.Defs
import proofs.«158796_j49203145343455_2_alg».proof.Proof.Gen.Kernel
import proofs.«158796_j49203145343455_2_alg».proof.Proof.Gen.Kernel.Skeleton
import proofs.«158796_j49203145343455_2_alg».proof.Proof.Gen.Kernel.Launch
import proofs.«158796_j49203145343455_2_alg».proof.Proof.Gen.Kernel.Points
import proofs.«158796_j49203145343455_2_alg».proof.Proof.Gen.Kernel.Frame
import proofs.«158796_j49203145343455_2_alg».proof.Proof.Gen.KernelIdeal
import proofs.«158796_j49203145343455_2_alg».proof.Proof.Gen.KernelIdeal.Skeleton
import proofs.«158796_j49203145343455_2_alg».proof.Proof.Gen.KernelIdeal.Launch
import proofs.«158796_j49203145343455_2_alg».proof.Proof.Gen.KernelIdeal.Points
import proofs.«158796_j49203145343455_2_alg».proof.Proof.Gen.KernelIdeal.Frame
import proofs.«158796_j49203145343455_2_alg».proof.Proof.Gen.ReferenceIdeal
import proofs.«158796_j49203145343455_2_alg».proof.Proof.Gen.Pre_finite_inputs
import proofs.«158796_j49203145343455_2_alg».proof.Proof.KernelModel
import proofs.«158796_j49203145343455_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- Over one edge array the two programs' neighbour aggregations are one function of the rows they are applied to … -/
theorem agg_eq (e : (⟨Cert.KernelIdeal.S2x1600000, .i32⟩ : BufTy).Contents (Elt Ideal)) :
    Cert.ReferenceIdeal.RefValue.agg e = Cert.KernelIdeal.Host.agg (Cert.KernelIdeal.Host.src e) (Cert.KernelIdeal.Host.dst e) := rfl

/-- … and their degree counts one array. -/
theorem cnt_eq (e : (⟨Cert.KernelIdeal.S2x1600000, .i32⟩ : BufTy).Contents (Elt Ideal)) :
    Cert.ReferenceIdeal.RefValue.cnt e = Cert.KernelIdeal.Host.cnt (Cert.KernelIdeal.Host.dst e) := rfl

theorem frame_k : Cert.frame_Kernel := fun m ρ _ => Cert.Kernel.Gen.frame m ρ

theorem frame_ki : Cert.frame_KernelIdeal := fun m ρ _ => Cert.KernelIdeal.Gen.frame m ρ

/-- The plain program's frame is its run with the result dropped. -/
theorem frame_ri : Cert.frame_ReferenceIdeal := fun m ρ _ =>
  (θ_run Cert.ReferenceIdeal.defs _ _).mono (fun _ h c => (h c).2) (Cert.ReferenceIdeal.RefValue.run_model m ρ)

/-- The idealization rewrote no operation. -/
theorem preserves : Cert.preserves_Kernel_KernelIdeal := trivial

/-- From memories that agree on the eight arguments both programs end with the model of those arguments in their result
    buffers: the tiled one over its own aggregation and count, the plain one over its own, and those are the same. -/
theorem algebraic : Cert.algebraic_KernelIdeal_ReferenceIdeal := by
  intro m ρ m' ρ' _ hagree
  refine ⟨_, Cert.KernelIdeal.Model.run_model m ρ, ?_⟩
  refine (θ_run Cert.ReferenceIdeal.defs _ _).mono (fun _ h c => ⟨(h c).1.trans ?_, (h c).2⟩)
    (Cert.ReferenceIdeal.RefValue.run_model m' ρ')
  obtain ⟨h0, h1, h2, h3, h4, h5, h6, h7⟩ := hagree c
  rw [h0, h1, h2, h3, h4, h5, h6, h7, agg_eq, cnt_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
